-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1700000 : Shape := ⟨1, ![1700000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128x128 .f32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128x128 .f32) (main_arg6 : FVec F S128 .f32) (main_arg7 : IVec S1700000 32) (main_arg8 : IVec S1700000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S1700000 : Shape := ⟨1, ![1700000]⟩
abbrev S_ : Shape := ⟨0, ![]⟩
abbrev S100000 : Shape := ⟨1, ![100000]⟩
abbrev S1700000x1 : Shape := ⟨2, ![1700000, 1]⟩
abbrev S100000x1 : Shape := ⟨2, ![100000, 1]⟩
abbrev S5000x128 : Shape := ⟨2, ![5000, 128]⟩
abbrev S1700000x128 : Shape := ⟨2, ![1700000, 128]⟩
abbrev S1x128 : Shape := ⟨2, ![1, 128]⟩
abbrev S5000x1 : Shape := ⟨2, ![5000, 1]⟩

abbrev nBuf : Space → Nat
  | .hbm => 96
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1700000, .i32⟩
  | .hbm, ⟨8, _⟩ => ⟨S1700000, .i32⟩
  | .hbm, ⟨9, _⟩ => ⟨S_, .f32⟩
  | .hbm, ⟨10, _⟩ => ⟨S1700000, .f32⟩
  | .hbm, ⟨11, _⟩ => ⟨S_, .f32⟩
  | .hbm, ⟨12, _⟩ => ⟨S100000, .f32⟩
  | .hbm, ⟨13, _⟩ => ⟨S1700000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x128, .f32⟩
  | .hbm, ⟨49, _⟩ => ⟨S1700000x1, .f32⟩
  | .hbm, ⟨50, _⟩ => ⟨S1700000x128, .f32⟩
  | .hbm, ⟨51, _⟩ => ⟨S1700000x128, .f32⟩
  | .hbm, ⟨52, _⟩ => ⟨S_, .f32⟩
  | .hbm, ⟨53, _⟩ => ⟨S100000x128, .f32⟩
  | .hbm, ⟨54, _⟩ => ⟨S1700000x1, .i32⟩
  | .hbm, ⟨55, _⟩ => ⟨S100000x128, .f32⟩
  | .hbm, ⟨56, _⟩ => ⟨S1x128, .f32⟩
  | .hbm, ⟨57, _⟩ => ⟨S100000x128, .f32⟩
  | .hbm, ⟨58, _⟩ => ⟨S100000x128, .f32⟩
  | .hbm, ⟨59, _⟩ => ⟨S_, .i32⟩
  | .hbm, ⟨60, _⟩ => ⟨S1700000, .i32⟩
  | .hbm, ⟨61, _⟩ => ⟨S1700000, .i1⟩
  | .hbm, ⟨62, _⟩ => ⟨S_, .i32⟩
  | .hbm, ⟨63, _⟩ => ⟨S1700000, .i32⟩
  | .hbm, ⟨64, _⟩ => ⟨S1700000, .i32⟩
  | .hbm, ⟨65, _⟩ => ⟨S1700000, .i32⟩
  | .hbm, ⟨66, _⟩ => ⟨S1700000x1, .i32⟩
  | .hbm, ⟨67, _⟩ => ⟨S1700000x128, .f32⟩
  | .hbm, ⟨68, _⟩ => ⟨S1700000x1, .f32⟩
  | .hbm, ⟨69, _⟩ => ⟨S1700000x128, .f32⟩
  | .hbm, ⟨70, _⟩ => ⟨S1700000x128, .f32⟩
  | .hbm, ⟨71, _⟩ => ⟨S_, .f32⟩
  | .hbm, ⟨72, _⟩ => ⟨S100000x128, .f32⟩
  | .hbm, ⟨73, _⟩ => ⟨S1700000x1, .i32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000x128, .f32⟩
  | .hbm, ⟨87, _⟩ => ⟨S1700000x1, .f32⟩
  | .hbm, ⟨88, _⟩ => ⟨S1700000x128, .f32⟩
  | .hbm, ⟨89, _⟩ => ⟨S1700000x128, .f32⟩
  | .hbm, ⟨90, _⟩ => ⟨S_, .f32⟩
  | .hbm, ⟨91, _⟩ => ⟨S100000x128, .f32⟩
  | .hbm, ⟨92, _⟩ => ⟨S1700000x1, .i32⟩
  | .hbm, ⟨93, _⟩ => ⟨S100000x128, .f32⟩
  | .hbm, ⟨94, _⟩ => ⟨S1x128, .f32⟩
  | .hbm, ⟨95, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x1, .f32⟩
  | .local _ .vmem, ⟨8, _⟩ => ⟨S5000x1, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x1, .f32⟩
  | .local _ .vmem, ⟨32, _⟩ => ⟨S5000x1, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c_5 : Ref sig .tc := ⟨.hbm, 40, rfl⟩
abbrev main_v20 : Ref sig .tc := ⟨.hbm, 41, rfl⟩
abbrev main_v21 : Ref sig .tc := ⟨.hbm, 42, rfl⟩
abbrev main_c_6 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_8 : Ref sig .tc := ⟨.hbm, 59, rfl⟩
abbrev main_v36 : Ref sig .tc := ⟨.hbm, 60, rfl⟩
abbrev main_v37 : Ref sig .tc := ⟨.hbm, 61, rfl⟩
abbrev main_c_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_v53 : Ref sig .tc := ⟨.hbm, 80, rfl⟩
abbrev main_c_12 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_13 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v34) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v48) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v18) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v49) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v50) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v51) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v64) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v18) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v65) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v66) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1700000 : Shape := ⟨1, ![1700000]⟩
abbrev S_ : Shape := ⟨0, ![]⟩
abbrev S100000 : Shape := ⟨1, ![100000]⟩
abbrev S1700000x1 : Shape := ⟨2, ![1700000, 1]⟩
abbrev S1700000x128 : Shape := ⟨2, ![1700000, 128]⟩
abbrev S100000x1 : Shape := ⟨2, ![100000, 1]⟩
abbrev S1x128 : Shape := ⟨2, ![1, 128]⟩

abbrev nBuf : Space → Nat
  | .hbm => 113
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S1700000, .i32⟩
  | .hbm, ⟨8, _⟩ => ⟨S1700000, .i32⟩
  | .hbm, ⟨9, _⟩ => ⟨S_, .f32⟩
  | .hbm, ⟨10, _⟩ => ⟨S1700000, .f32⟩
  | .hbm, ⟨11, _⟩ => ⟨S_, .f32⟩
  | .hbm, ⟨12, _⟩ => ⟨S100000, .f32⟩
  | .hbm, ⟨13, _⟩ => ⟨S1700000x1, .i32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S1700000x1, .i32⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S100000, .f32⟩
  | .hbm, ⟨38, _⟩ => ⟨S100000x128, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000x128, .f32⟩
  | .hbm, ⟨48, _⟩ => ⟨S1700000x1, .f32⟩
  | .hbm, ⟨49, _⟩ => ⟨S1700000x128, .f32⟩
  | .hbm, ⟨50, _⟩ => ⟨S1700000x128, .f32⟩
  | .hbm, ⟨51, _⟩ => ⟨S_, .f32⟩
  | .hbm, ⟨52, _⟩ => ⟨S100000x128, .f32⟩
  | .hbm, ⟨53, _⟩ => ⟨S1700000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .f32⟩
  | .hbm, ⟨74, _⟩ => ⟨S1700000x1, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S100000x1, .f32⟩
  | .hbm, ⟨82, _⟩ => ⟨S100000x128, .f32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x128, .f32⟩
  | .hbm, ⟨89, _⟩ => ⟨S100000x128, .f32⟩
  | .hbm, ⟨90, _⟩ => ⟨S100000x128, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x128, .f32⟩
  | .hbm, ⟨100, _⟩ => ⟨S1700000x1, .f32⟩
  | .hbm, ⟨101, _⟩ => ⟨S1700000x128, .f32⟩
  | .hbm, ⟨102, _⟩ => ⟨S1700000x128, .f32⟩
  | .hbm, ⟨103, _⟩ => ⟨S_, .f32⟩
  | .hbm, ⟨104, _⟩ => ⟨S100000x128, .f32⟩
  | .hbm, ⟨105, _⟩ => ⟨S1700000x1, .i32⟩
  | .hbm, ⟨106, _⟩ => ⟨S100000x128, .f32⟩
  | .hbm, ⟨107, _⟩ => ⟨S100000x1, .f32⟩
  | .hbm, ⟨108, _⟩ => ⟨S100000x128, .f32⟩
  | .hbm, ⟨109, _⟩ => ⟨S100000x128, .f32⟩
  | .hbm, ⟨110, _⟩ => ⟨S1x128, .f32⟩
  | .hbm, ⟨111, _⟩ => ⟨S100000x128, .f32⟩
  | .hbm, ⟨112, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_v9 : Ref sig .tc := ⟨.hbm, 27, rfl⟩
abbrev main_c : Ref sig .tc := ⟨.hbm, 28, rfl⟩
abbrev main_v10 : Ref sig .tc := ⟨.hbm, 29, rfl⟩
abbrev main_v11 : Ref sig .tc := ⟨.hbm, 30, rfl⟩
abbrev main_c_4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_5 : Ref sig .tc := ⟨.hbm, 39, rfl⟩
abbrev main_v19 : Ref sig .tc := ⟨.hbm, 40, rfl⟩
abbrev main_v20 : Ref sig .tc := ⟨.hbm, 41, rfl⟩
abbrev main_c_6 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_7 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_call2_cst : Ref sig .tc := ⟨.hbm, 61, rfl⟩
abbrev main_call2_v0 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_c_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call3_cst : Ref sig .tc := ⟨.hbm, 87, rfl⟩
abbrev main_call3_v0 : Ref sig .tc := ⟨.hbm, 88, rfl⟩
abbrev main_v59 : Ref sig .tc := ⟨.hbm, 89, rfl⟩
abbrev main_v60 : Ref sig .tc := ⟨.hbm, 90, rfl⟩
abbrev main_c_11 : Ref sig .tc := ⟨.hbm, 91, rfl⟩
abbrev main_v61 : Ref sig .tc := ⟨.hbm, 92, rfl⟩
abbrev main_v62 : Ref sig .tc := ⟨.hbm, 93, rfl⟩
abbrev main_c_12 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_13 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩

abbrev nD : Nat := 1
abbrev τ : Topo := Topo.v7x

variable {F : FTy → Type} [FloatOps F]

class Facts₀ : Prop where
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.ResultRun.lean ====
/-
  The kernel's whole run, with its result named.

  @main is fourteen segments — stretches of host operations and six kernel regions — and the buffer contents at each
  segment boundary are a fold from the launch memory: a host stretch applies its operations, a region leaves in each of
  its arrays what its write-backs leave and every other buffer as it was. Every weakly fair execution terminates with
  every unscoped buffer at the last boundary's contents; read at the result buffer that names the result, and at the
  argument buffers, which no segment writes, it gives back the launch contents.
-/
import proofs.«161208_j50792283243092_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v66) = W14 m ρ c (Proc.devRef .tc main_v66)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v66 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c)⟩)

end Cert.KernelIdeal.ResultRun

end
-- ==== Proof.LibColsMatmul.lean ====
/-
  Rows against columns: the plain matrix product read at an index, whatever the operands' float formats.

  For x of shape [a, n] and w of shape [n, b], the product contracting axis 1 of x with axis 0 of w has shape [a, b],
  and its entry (p, e) is the sum over k < n of x(p, k) * w(k, e). On the extended reals the matrix-unit product into a
  zero accumulator is exactly that sum — also when the operands are held in shorter float formats than the
  accumulator, a change of format being the identity there.
-/
import Idealize.ShloMosaic.PureOps.Ideal.Laws
import Idealize.ShloMosaic.Lib.ValueIdx

noncomputable section

namespace Cert.ColsMatmul

open Idealize.ShloMosaic Idealize.ShloMosaic.ValueIdx

variable {a b n : ℕ}

/-- The dimension numbers "contract axis 1 of the left operand with axis 0 of the right, no batch axis". -/
abbrev colsDims (wf : DotDims.WF ⟨2, ![a, n]⟩ ⟨2, ![n, b]⟩ ⟨2, ![a, b]⟩ [1] [0] [0] [1] [] []) :
    DotDims ⟨2, ![a, n]⟩ ⟨2, ![n, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, n]⟩ ⟨2, ![n, b]⟩ ⟨2, ![a, b]⟩ [1] [0] [0] [1] [] [])

/-- The left operand's index at output (p, e) and contraction index q: row p, -/
theorem lhs_row (i : (⟨2, ![a, b]⟩ : Shape).Idx) (q : (colsDims wf).contr.Idx) :
    ((colsDims wf).lhsIdx i q 0).val = (i 0).val := by
  unfold DotDims.lhsIdx
  rw [dif_neg (show ¬(0 : Fin (⟨2, ![a, n]⟩ : Shape).rank) ∈ (colsDims wf).lhsBatch from List.not_mem_nil),
    dif_pos (show (0 : Fin (⟨2, ![a, n]⟩ : Shape).rank) ∈ (colsDims wf).lhsNonContracting from List.mem_singleton.mpr rfl)]
  rfl
/-- column q. -/
theorem lhs_col (i : (⟨2, ![a, b]⟩ : Shape).Idx) (q : (colsDims wf).contr.Idx) :
    ((colsDims wf).lhsIdx i q 1).val = (q ⟨0, Nat.one_pos⟩).val :=
  (colsDims wf).lhsIdx_val_of_single rfl i q
/-- The right operand's: row q, -/
theorem rhs_row (i : (⟨2, ![a, b]⟩ : Shape).Idx) (q : (colsDims wf).contr.Idx) :
    ((colsDims wf).rhsIdx i q 0).val = (q ⟨0, Nat.one_pos⟩).val :=
  (colsDims wf).rhsIdx_val_of_single rfl i q
/-- column e. -/
theorem rhs_col (i : (⟨2, ![a, b]⟩ : Shape).Idx) (q : (colsDims wf).contr.Idx) :
    ((colsDims wf).rhsIdx i q 1).val = (i 1).val := by
  unfold DotDims.rhsIdx
  rw [dif_neg (show ¬(1 : Fin (⟨2, ![n, b]⟩ : Shape).rank) ∈ (colsDims wf).rhsBatch from List.not_mem_nil),
    dif_pos (show (1 : Fin (⟨2, ![n, b]⟩ : Shape).rank) ∈ (colsDims wf).rhsNonContracting from List.mem_singleton.mpr rfl)]
  rfl

/-- The contraction's sum at (p, e), re-indexed by the one contracted coordinate: row p of x against column e of w. -/
theorem contraction_cols (x : (⟨2, ![a, n]⟩ : Shape).Idx → EReal) (w : (⟨2, ![n, b]⟩ : Shape).Idx → EReal) (p : Fin a) (e : Fin b) :
    ∑ q : (colsDims wf).contr.Idx, x ((colsDims wf).lhsIdx (ix2 p e) q) * w ((colsDims wf).rhsIdx (ix2 p e) q)
      = ∑ k : Fin n, x (ix2 p k) * w (ix2 k e) := by
  rw [← Equiv.sum_comp (contrEquiv1 (colsDims wf) n rfl rfl).symm]
  refine Finset.sum_congr rfl fun k _ => ?_
  have hk := contrEquiv1_symm_val (colsDims wf) n rfl rfl k
  have el : (colsDims wf).lhsIdx (ix2 p e) ((contrEquiv1 (colsDims wf) n rfl rfl).symm k) = ix2 p k := funext fun ax => Fin.ext (by
    match ax with
    | ⟨0, _⟩ => exact lhs_row wf _ _
    | ⟨1, _⟩ => exact (lhs_col wf _ _).trans hk)
  have er : (colsDims wf).rhsIdx (ix2 p e) ((contrEquiv1 (colsDims wf) n rfl rfl).symm k) = ix2 k e := funext fun ax => Fin.ext (by
    match ax with
    | ⟨0, _⟩ => exact (rhs_row wf _ _).trans hk
    | ⟨1, _⟩ => exact rhs_col wf _ _)
  rw [el, er]

/-- The matrix-unit product of an [a, n] and an [n, b] operand of any float formats into the zero accumulator is, at
    (p, e), the sum over k of x(p,k) * w(k,e); the dimension record may be any record equal to `colsDims`. -/
theorem cols_matmul {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) (p : Fin a) (e : Fin b) :
    FloatOps.matmul d none x w (constant ⟨2, ![a, b]⟩ .f32 0x00000000#32) (ix2 p e)
      = ∑ k : Fin n, x (ix2 p k) * w (ix2 k e) := by
  subst hd
  exact (Ideal.matmul_constant_zero_apply (colsDims wf) none x w (ix2 p e)).trans (contraction_cols wf x w p e)

end Cert.ColsMatmul

end
-- ==== Proof.LibDenseSteps.lean ====
/-
  The dense steps of a two-layer graph convolution, entry by entry on the extended reals.

  * `prod x w`: the product of an [a, n] matrix with an [n, b] matrix; entry (p, e) is the sum over k of
    x(p, k) * w(k, e). The matrix unit's product into a zero accumulator and the host's general product
    contracting axis 1 with axis 0 are both this function, whatever float formats hold the operands.
  * `biasRelu g β`: a length-n vector β added along every row of an [a, n] matrix g, then the larger of the
    sum and zero, entry by entry: max (g(p, e) + β(e), 0).
  * `addRow g β`: the same without the maximum: g(p, e) + β(e).
  Each is proved equal to the spelling a kernel body gives it on a block of rows (the vector given as a one-row
  matrix and repeated down the rows) and to the spelling of the host program (the vector laid along axis 1 of a
  one-row matrix, then repeated along axis 0). No finiteness is used: only the definitions of the operations.
-/
import Idealize.ShloMosaic.PureOps.Ideal.Laws
import Idealize.ShloMosaic.Lib.ValueIdx
import Idealize.ShloMosaic.Lib.ValueLayout
import Idealize.ShloMosaic.Lib.Pipeline.Value
import proofs.«161208_j50792283243092_1_alg».proof.Proof.LibColsMatmul

noncomputable section

namespace Cert.Layers

open Idealize.ShloMosaic Idealize.ShloMosaic.ValueIdx Cert.ColsMatmul

variable {a n b : ℕ}

/-- The matrix product: entry (p, e) is the sum over k of x(p, k) * w(k, e). -/
def prod (x : (⟨2, ![a, n]⟩ : Shape).Idx → EReal) (w : (⟨2, ![n, b]⟩ : Shape).Idx → EReal) :
    (⟨2, ![a, b]⟩ : Shape).Idx → EReal :=
  fun i => ∑ k : Fin n, x (ix2 (i 0) k) * w (ix2 k (i 1))

theorem prod_apply (x : (⟨2, ![a, n]⟩ : Shape).Idx → EReal) (w : (⟨2, ![n, b]⟩ : Shape).Idx → EReal) (p : Fin a) (e : Fin b) :
    prod x w (ix2 p e) = ∑ k : Fin n, x (ix2 p k) * w (ix2 k e) := rfl

/-- A one-row matrix β added along every row of g, then the larger of the sum and zero. -/
def biasReluRow (g : (⟨2, ![a, n]⟩ : Shape).Idx → EReal) (β : (⟨2, ![1, n]⟩ : Shape).Idx → EReal) :
    (⟨2, ![a, n]⟩ : Shape).Idx → EReal :=
  fun i => max (g i + β (ix2 (0 : Fin 1) (i 1))) (Ideal.ofBits .f32 0x00000000#32)

/-- A vector β added along every row of g, then the larger of the sum and zero. -/
def biasRelu (g : (⟨2, ![a, n]⟩ : Shape).Idx → EReal) (β : (⟨1, ![n]⟩ : Shape).Idx → EReal) :
    (⟨2, ![a, n]⟩ : Shape).Idx → EReal :=
  fun i => max (g i + β (ix1 (i 1))) (Ideal.ofBits .f32 0x00000000#32)

/-- A one-row matrix β added along every row of g. -/
def addRowRow (g : (⟨2, ![a, n]⟩ : Shape).Idx → EReal) (β : (⟨2, ![1, n]⟩ : Shape).Idx → EReal) :
    (⟨2, ![a, n]⟩ : Shape).Idx → EReal :=
  fun i => g i + β (ix2 (0 : Fin 1) (i 1))

/-- A vector β added along every row of g. -/
def addRow (g : (⟨2, ![a, n]⟩ : Shape).Idx → EReal) (β : (⟨1, ![n]⟩ : Shape).Idx → EReal) :
    (⟨2, ![a, n]⟩ : Shape).Idx → EReal :=
  fun i => g i + β (ix1 (i 1))

/-- An entry of a product depends on one row of the left factor and one column of the right factor. -/
theorem prod_congr {a' b' : ℕ} (x : (⟨2, ![a, n]⟩ : Shape).Idx → EReal) (w : (⟨2, ![n, b]⟩ : Shape).Idx → EReal)
    (x' : (⟨2, ![a', n]⟩ : Shape).Idx → EReal) (w' : (⟨2, ![n, b']⟩ : Shape).Idx → EReal)
    (i : (⟨2, ![a, b]⟩ : Shape).Idx) (i' : (⟨2, ![a', b']⟩ : Shape).Idx)
    (hx : ∀ k : Fin n, x (ix2 (i 0) k) = x' (ix2 (i' 0) k)) (hw : ∀ k : Fin n, w (ix2 k (i 1)) = w' (ix2 k (i' 1))) :
    prod x w i = prod x' w' i' :=
  Finset.sum_congr rfl fun k _ => by rw [hx k, hw k]

/-- An entry of the rectified sum depends on that entry of the matrix and that entry of the row. -/
theorem biasReluRow_congr {a' : ℕ} (g : (⟨2, ![a, n]⟩ : Shape).Idx → EReal) (β : (⟨2, ![1, n]⟩ : Shape).Idx → EReal)
    (g' : (⟨2, ![a', n]⟩ : Shape).Idx → EReal) (β' : (⟨2, ![1, n]⟩ : Shape).Idx → EReal) (p : Fin a) (p' : Fin a') (k : Fin n)
    (hg : g (ix2 p k) = g' (ix2 p' k)) (hβ : β (ix2 (0 : Fin 1) k) = β' (ix2 (0 : Fin 1) k)) :
    biasReluRow g β (ix2 p k) = biasReluRow g' β' (ix2 p' k) := by
  show max (g (ix2 p k) + β (ix2 (0 : Fin 1) k)) _ = max (g' (ix2 p' k) + β' (ix2 (0 : Fin 1) k)) _
  rw [hg, hβ]

/-- An entry of the sum with a row depends on that entry of the matrix and that entry of the row. -/
theorem addRowRow_congr {a' : ℕ} (g : (⟨2, ![a, n]⟩ : Shape).Idx → EReal) (β : (⟨2, ![1, n]⟩ : Shape).Idx → EReal)
    (g' : (⟨2, ![a', n]⟩ : Shape).Idx → EReal) (β' : (⟨2, ![1, n]⟩ : Shape).Idx → EReal)
    (i : (⟨2, ![a, n]⟩ : Shape).Idx) (i' : (⟨2, ![a', n]⟩ : Shape).Idx)
    (hg : g i = g' i') (hβ : β (ix2 (0 : Fin 1) (i 1)) = β' (ix2 (0 : Fin 1) (i' 1))) :
    addRowRow g β i = addRowRow g' β' i' := by
  show g i + β (ix2 (0 : Fin 1) (i 1)) = g' i' + β' (ix2 (0 : Fin 1) (i' 1))
  rw [hg, hβ]

/-! ## The two products -/

variable (wf : DotDims.WF ⟨2, ![a, n]⟩ ⟨2, ![n, b]⟩ ⟨2, ![a, b]⟩ [1] [0] [0] [1] [] [])

/-- The matrix unit's product of an [a, n] and an [n, b] operand into the zero accumulator is `prod`. -/
theorem matmul_eq_prod {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) :
    FloatOps.matmul d none x w (constant ⟨2, ![a, b]⟩ .f32 0x00000000#32) = prod x w := by
  funext i
  obtain ⟨p, e, rfl⟩ : ∃ (p : Fin a) (e : Fin b), i = ix2 p e := ⟨i 0, i 1, eq_ix2 i⟩
  exact cols_matmul wf d hd x w p e

/-- The host's general product contracting axis 1 of the left operand with axis 0 of the right is `prod`. -/
theorem dotGeneral_eq_prod {φ₁ φ₂ : FTy} (d : DotDims ⟨2, ![a, n]⟩ ⟨2, ![n, b]⟩ ⟨2, ![a, b]⟩) (hd : d = colsDims wf)
    (x : FVec Ideal ⟨2, ![a, n]⟩ φ₁) (w : FVec Ideal ⟨2, ![n, b]⟩ φ₂) :
    Host.dotGeneral d none x w = prod x w := by
  subst hd
  funext i
  obtain ⟨p, e, rfl⟩ : ∃ (p : Fin a) (e : Fin b), i = ix2 p e := ⟨i 0, i 1, eq_ix2 i⟩
  exact (Ideal.dotGeneral_apply (colsDims wf) none .single x w (ix2 p e)).trans (contraction_cols wf x w p e)

/-! ## A vector along the rows -/

/-- A vector seen as a one-row matrix reads its entry e at (0, e). -/
theorem row_of_vector (β : (⟨1, ![n]⟩ : Shape).Idx → EReal) (h : (⟨1, ![n]⟩ : Shape).ShapeCasts ⟨2, ![1, n]⟩) (e : Fin n) :
    shapeCast ⟨2, ![1, n]⟩ β h (ix2 (0 : Fin 1) e) = β (ix1 e) :=
  shapeCast_a_1a_apply β h (0 : Fin 1) e

theorem biasReluRow_row (g : (⟨2, ![a, n]⟩ : Shape).Idx → EReal) (β : (⟨1, ![n]⟩ : Shape).Idx → EReal)
    (h : (⟨1, ![n]⟩ : Shape).ShapeCasts ⟨2, ![1, n]⟩) :
    biasReluRow g (shapeCast ⟨2, ![1, n]⟩ β h) = biasRelu g β := by
  funext i
  obtain ⟨p, e, rfl⟩ : ∃ (p : Fin a) (e : Fin n), i = ix2 p e := ⟨i 0, i 1, eq_ix2 i⟩
  show max (g (ix2 p e) + shapeCast ⟨2, ![1, n]⟩ β h (ix2 (0 : Fin 1) e)) (Ideal.ofBits .f32 0x00000000#32)
    = max (g (ix2 p e) + β (ix1 e)) (Ideal.ofBits .f32 0x00000000#32)
  rw [row_of_vector]

theorem addRowRow_row (g : (⟨2, ![a, n]⟩ : Shape).Idx → EReal) (β : (⟨1, ![n]⟩ : Shape).Idx → EReal)
    (h : (⟨1, ![n]⟩ : Shape).ShapeCasts ⟨2, ![1, n]⟩) :
    addRowRow g (shapeCast ⟨2, ![1, n]⟩ β h) = addRow g β := by
  funext i
  obtain ⟨p, e, rfl⟩ : ∃ (p : Fin a) (e : Fin n), i = ix2 p e := ⟨i 0, i 1, eq_ix2 i⟩
  show g (ix2 p e) + shapeCast ⟨2, ![1, n]⟩ β h (ix2 (0 : Fin 1) e) = g (ix2 p e) + β (ix1 e)
  rw [row_of_vector]

/-! ## The kernel's vector spelling, on a block of rows -/

/-- A block g and a one-row block β: β repeated down the rows, added, and the maximum with a zero splat. -/
theorem kernel_biasRelu (g : FVec Ideal ⟨2, ![a, n]⟩ .f32) (β : FVec Ideal ⟨2, ![1, n]⟩ .f32)
    (hg : (⟨2, ![a, n]⟩ : Shape).ShapeCasts ⟨2, ![a, n]⟩) (hβ : (⟨2, ![1, n]⟩ : Shape).ShapeCasts ⟨2, ![1, n]⟩)
    (hb : (⟨2, ![1, n]⟩ : Shape).Broadcasts ⟨2, ![a, n]⟩) :
    maximumf (addf (shapeCast ⟨2, ![a, n]⟩ g hg) (broadcastTo ⟨2, ![a, n]⟩ (shapeCast ⟨2, ![1, n]⟩ β hβ) hb))
        (broadcast ⟨2, ![a, n]⟩ (Scalar.ofBits (F := Ideal) .f32 0x00000000#32))
      = biasReluRow g β := by
  rw [shapeCast_self, shapeCast_self]
  funext i
  obtain ⟨p, e, rfl⟩ : ∃ (p : Fin a) (e : Fin n), i = ix2 p e := ⟨i 0, i 1, eq_ix2 i⟩
  show max (g (ix2 p e) + broadcastTo ⟨2, ![a, n]⟩ β hb (ix2 p e)) (Ideal.ofBits .f32 0x00000000#32) = _
  rw [broadcastTo_1b_ab_apply]
  rfl

/-- The same without the maximum. -/
theorem kernel_addRow (g : FVec Ideal ⟨2, ![a, n]⟩ .f32) (β : FVec Ideal ⟨2, ![1, n]⟩ .f32)
    (hg : (⟨2, ![a, n]⟩ : Shape).ShapeCasts ⟨2, ![a, n]⟩) (hβ : (⟨2, ![1, n]⟩ : Shape).ShapeCasts ⟨2, ![1, n]⟩)
    (hb : (⟨2, ![1, n]⟩ : Shape).Broadcasts ⟨2, ![a, n]⟩) :
    addf (shapeCast ⟨2, ![a, n]⟩ g hg) (broadcastTo ⟨2, ![a, n]⟩ (shapeCast ⟨2, ![1, n]⟩ β hβ) hb) = addRowRow g β := by
  rw [shapeCast_self, shapeCast_self]
  funext i
  obtain ⟨p, e, rfl⟩ : ∃ (p : Fin a) (e : Fin n), i = ix2 p e := ⟨i 0, i 1, eq_ix2 i⟩
  show g (ix2 p e) + broadcastTo ⟨2, ![a, n]⟩ β hb (ix2 p e) = _
  rw [broadcastTo_1b_ab_apply]
  rfl

/-! ## The host's spelling -/

/-- The host lays a vector along axis 1 of a one-row matrix and repeats that along axis 0: at (p, e) it reads β(e). -/
theorem host_row (β : (⟨1, ![n]⟩ : Shape).Idx → EReal)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (e : Fin n) :
    broadcastInDim ⟨2, ![a, n]⟩ ![0, 1] h2 (broadcastInDim ⟨2, ![1, n]⟩ ![1] h1 β) (ix2 p e) = β (ix1 e) := by
  rw [broadcastInDim_apply ![0, 1] h2 _ (ix2 p e) (ix2 (0 : Fin 1) e) (fun ax => by
    match ax with
    | ⟨0, _⟩ => rfl
    | ⟨1, _⟩ =>
      show e.val = if n = 1 then 0 else e.val
      split
      · have := e.isLt; omega
      · rfl)]
  exact broadcastInDim_apply ![1] h1 β (ix2 (0 : Fin 1) e) (ix1 e) (fun ax => by
    match ax with
    | ⟨0, _⟩ =>
      show e.val = if n = 1 then 0 else e.val
      split
      · have := e.isLt; omega
      · rfl)

/-- The host's sum with a vector along the rows. -/
theorem host_addRow (g : FVec Ideal ⟨2, ![a, n]⟩ .f32) (β : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1]) :
    addf g (broadcastInDim ⟨2, ![a, n]⟩ ![0, 1] h2 (broadcastInDim ⟨2, ![1, n]⟩ ![1] h1 β)) = addRow g β := by
  funext i
  obtain ⟨p, e, rfl⟩ : ∃ (p : Fin a) (e : Fin n), i = ix2 p e := ⟨i 0, i 1, eq_ix2 i⟩
  show g (ix2 p e) + broadcastInDim ⟨2, ![a, n]⟩ ![0, 1] h2 (broadcastInDim ⟨2, ![1, n]⟩ ![1] h1 β) (ix2 p e) = _
  rw [host_row]
  rfl

/-- The host's sum with a vector along the rows followed by the maximum with a zero splat. -/
theorem host_biasRelu (g : FVec Ideal ⟨2, ![a, n]⟩ .f32) (β : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![a, n]⟩ ![0, 1])
    (h0 : (⟨0, ![]⟩ : Shape).BroadcastsInDim ⟨2, ![a, n]⟩ ![]) :
    maximumf (addf g (broadcastInDim ⟨2, ![a, n]⟩ ![0, 1] h2 (broadcastInDim ⟨2, ![1, n]⟩ ![1] h1 β)))
        (broadcastInDim ⟨2, ![a, n]⟩ ![] h0 (constant (F := Ideal) ⟨0, ![]⟩ .f32 0x00000000#32))
      = biasRelu g β := by
  rw [host_addRow]
  funext i
  show max (addRow g β i) (broadcastInDim ⟨2, ![a, n]⟩ ![] h0 (constant (F := Ideal) ⟨0, ![]⟩ .f32 0x00000000#32) i) = _
  rw [broadcastInDim_apply ![] h0 _ i ix0 (fun ax => ax.elim0)]
  rfl

end Cert.Layers

end
-- ==== Proof.LibNormBias.lean ====
/-
  Scaling the rows of a matrix by a kept column and adding a vector along them, entry by entry on the extended reals.

  For an [a, n] matrix g, a column s kept as an [a, 1] matrix, and a length-n vector β:
  * `scaleBias g s β`: entry (p, e) is g(p, e) * s(p, 0) + β(e) — each row p scaled by its own factor s(p, 0),
    then β added along it. `scaleBiasRow` is the same with β given as a one-row matrix [1, n].
  * `relu v`: the larger of each entry and zero.
  Each is proved equal to the spelling a kernel body gives it on a block of rows (the column repeated across the
  lanes, the one-row matrix repeated down the rows, a zero splat) and to the spelling of a host program (the column and the
  vector laid out by broadcast_in_dim, a broadcast scalar zero). Only the definitions of the operations are used:
  nothing here needs a finite entry.
-/
import Idealize.ShloMosaic.PureOps.Ideal.Laws
import Idealize.ShloMosaic.Lib.ValueIdx
import Idealize.ShloMosaic.Lib.ValueLayout
import Idealize.ShloMosaic.Lib.Pipeline.Value

noncomputable section

namespace Cert.NormBias

open Idealize.ShloMosaic Idealize.ShloMosaic.ValueIdx

variable {a n : ℕ}

/-- Row p of g scaled by s(p, 0), then the one-row matrix β added along it. -/
def scaleBiasRow (g : (⟨2, ![a, n]⟩ : Shape).Idx → EReal) (s : (⟨2, ![a, 1]⟩ : Shape).Idx → EReal)
    (β : (⟨2, ![1, n]⟩ : Shape).Idx → EReal) : (⟨2, ![a, n]⟩ : Shape).Idx → EReal :=
  fun i => g i * s (ix2 (i 0) (0 : Fin 1)) + β (ix2 (0 : Fin 1) (i 1))

/-- Row p of g scaled by s(p, 0), then the vector β added along it. -/
def scaleBias (g : (⟨2, ![a, n]⟩ : Shape).Idx → EReal) (s : (⟨2, ![a, 1]⟩ : Shape).Idx → EReal)
    (β : (⟨1, ![n]⟩ : Shape).Idx → EReal) : (⟨2, ![a, n]⟩ : Shape).Idx → EReal :=
  fun i => g i * s (ix2 (i 0) (0 : Fin 1)) + β (ix1 (i 1))

/-- The larger of each entry and zero. -/
def relu (v : (⟨2, ![a, n]⟩ : Shape).Idx → EReal) : (⟨2, ![a, n]⟩ : Shape).Idx → EReal :=
  fun i => max (v i) (Ideal.ofBits .f32 0x00000000#32)

/-- An entry of the scaled and shifted matrix depends on that entry of g, its row's factor and its column's shift. -/
theorem scaleBiasRow_congr {a' : ℕ} (g : (⟨2, ![a, n]⟩ : Shape).Idx → EReal) (s : (⟨2, ![a, 1]⟩ : Shape).Idx → EReal)
    (β : (⟨2, ![1, n]⟩ : Shape).Idx → EReal) (g' : (⟨2, ![a', n]⟩ : Shape).Idx → EReal)
    (s' : (⟨2, ![a', 1]⟩ : Shape).Idx → EReal) (β' : (⟨2, ![1, n]⟩ : Shape).Idx → EReal)
    (i : (⟨2, ![a, n]⟩ : Shape).Idx) (i' : (⟨2, ![a', n]⟩ : Shape).Idx)
    (hg : g i = g' i') (hs : s (ix2 (i 0) (0 : Fin 1)) = s' (ix2 (i' 0) (0 : Fin 1)))
    (hβ : β (ix2 (0 : Fin 1) (i 1)) = β' (ix2 (0 : Fin 1) (i' 1))) :
    scaleBiasRow g s β i = scaleBiasRow g' s' β' i' := by
  show g i * s (ix2 (i 0) (0 : Fin 1)) + β (ix2 (0 : Fin 1) (i 1))
    = g' i' * s' (ix2 (i' 0) (0 : Fin 1)) + β' (ix2 (0 : Fin 1) (i' 1))
  rw [hg, hs, hβ]

/-- An entry of the rectified matrix depends on that entry alone. -/
theorem relu_congr {a' : ℕ} (v : (⟨2, ![a, n]⟩ : Shape).Idx → EReal) (v' : (⟨2, ![a', n]⟩ : Shape).Idx → EReal)
    (i : (⟨2, ![a, n]⟩ : Shape).Idx) (i' : (⟨2, ![a', n]⟩ : Shape).Idx) (h : v i = v' i') : relu v i = relu v' i' := by
  show max (v i) _ = max (v' i') _
  rw [h]

/-- A vector seen as a one-row matrix: the two forms of the shift agree. -/
theorem scaleBiasRow_row (g : (⟨2, ![a, n]⟩ : Shape).Idx → EReal) (s : (⟨2, ![a, 1]⟩ : Shape).Idx → EReal)
    (β : (⟨1, ![n]⟩ : Shape).Idx → EReal) (h : (⟨1, ![n]⟩ : Shape).ShapeCasts ⟨2, ![1, n]⟩) :
    scaleBiasRow g s (shapeCast ⟨2, ![1, n]⟩ β h) = scaleBias g s β := by
  funext i
  obtain ⟨p, e, rfl⟩ : ∃ (p : Fin a) (e : Fin n), i = ix2 p e := ⟨i 0, i 1, eq_ix2 i⟩
  show g (ix2 p e) * s (ix2 p (0 : Fin 1)) + shapeCast ⟨2, ![1, n]⟩ β h (ix2 (0 : Fin 1) e)
    = g (ix2 p e) * s (ix2 p (0 : Fin 1)) + β (ix1 e)
  rw [shapeCast_a_1a_apply]

/-! ## A kept column across the lanes -/

/-- An [a, 1] column broadcast to [a, n] reads, at (p, e), the column's entry of row p. -/
theorem broadcastTo_a1_an_apply {α : Type} (v : (⟨2, ![a, 1]⟩ : Shape).Idx → α)
    (h : (⟨2, ![a, 1]⟩ : Shape).Broadcasts ⟨2, ![a, n]⟩) (p : Fin a) (e : Fin n) :
    broadcastTo ⟨2, ![a, n]⟩ v h (ix2 p e) = v (ix2 p (0 : Fin 1)) := by
  refine broadcastTo_apply v h (ix2 p e) (ix2 p (0 : Fin 1)) fun ax => ?_
  match ax with
  | ⟨0, _⟩ =>
    show p.val = if a = 1 then 0 else p.val
    split
    · have := p.isLt; omega
    · rfl
  | ⟨1, _⟩ => rfl

/-- The host's layout of an [a, 1] column over [a, n] (axes kept in place) reads the same entry. -/
theorem broadcastInDim_a1_an_apply {α : Type} (v : (⟨2, ![a, 1]⟩ : Shape).Idx → α)
    (h : (⟨2, ![a, 1]⟩ : Shape).BroadcastsInDim ⟨2, ![a, n]⟩ ![0, 1]) (p : Fin a) (e : Fin n) :
    broadcastInDim ⟨2, ![a, n]⟩ ![0, 1] h v (ix2 p e) = v (ix2 p (0 : Fin 1)) := by
  refine broadcastInDim_apply ![0, 1] h v (ix2 p e) (ix2 p (0 : Fin 1)) fun ax => ?_
  match ax with
  | ⟨0, _⟩ =>
    show p.val = if a = 1 then 0 else p.val
    split
    · have := p.isLt; omega
    · rfl
  | ⟨1, _⟩ => rfl

/-- The host lays a vector along axis 1 of a one-row matrix and repeats that along axis 0: at (p, e) it reads β(e). -/
theorem broadcastInDim_row_apply {α : Type} (β : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![a, n]⟩ ![0, 1]) (p : Fin a) (e : Fin n) :
    broadcastInDim ⟨2, ![a, n]⟩ ![0, 1] h2 (broadcastInDim ⟨2, ![1, n]⟩ ![1] h1 β) (ix2 p e) = β (ix1 e) := by
  rw [broadcastInDim_apply ![0, 1] h2 _ (ix2 p e) (ix2 (0 : Fin 1) e) (fun ax => by
    match ax with
    | ⟨0, _⟩ => rfl
    | ⟨1, _⟩ =>
      show e.val = if n = 1 then 0 else e.val
      split
      · have := e.isLt; omega
      · rfl)]
  exact broadcastInDim_apply ![1] h1 β (ix2 (0 : Fin 1) e) (ix1 e) (fun ax => by
    match ax with
    | ⟨0, _⟩ =>
      show e.val = if n = 1 then 0 else e.val
      split
      · have := e.isLt; omega
      · rfl)

/-! ## The kernel's vector spelling, on a block of rows -/

/-- A block g, its kept column s repeated across the lanes and multiplied in, a one-row block β repeated down the rows
    and added. -/
theorem kernel_scaleBiasRow (g : FVec Ideal ⟨2, ![a, n]⟩ .f32) (s : FVec Ideal ⟨2, ![a, 1]⟩ .f32)
    (β : FVec Ideal ⟨2, ![1, n]⟩ .f32)
    (hg : (⟨2, ![a, n]⟩ : Shape).ShapeCasts ⟨2, ![a, n]⟩) (hs : (⟨2, ![a, 1]⟩ : Shape).ShapeCasts ⟨2, ![a, 1]⟩)
    (hβ : (⟨2, ![1, n]⟩ : Shape).ShapeCasts ⟨2, ![1, n]⟩)
    (hbs : (⟨2, ![a, 1]⟩ : Shape).Broadcasts ⟨2, ![a, n]⟩) (hbβ : (⟨2, ![1, n]⟩ : Shape).Broadcasts ⟨2, ![a, n]⟩) :
    addf (mulf (shapeCast ⟨2, ![a, n]⟩ g hg) (broadcastTo ⟨2, ![a, n]⟩ (shapeCast ⟨2, ![a, 1]⟩ s hs) hbs))
        (broadcastTo ⟨2, ![a, n]⟩ (shapeCast ⟨2, ![1, n]⟩ β hβ) hbβ)
      = scaleBiasRow g s β := by
  rw [shapeCast_self, shapeCast_self, shapeCast_self]
  funext i
  obtain ⟨p, e, rfl⟩ : ∃ (p : Fin a) (e : Fin n), i = ix2 p e := ⟨i 0, i 1, eq_ix2 i⟩
  show g (ix2 p e) * broadcastTo ⟨2, ![a, n]⟩ s hbs (ix2 p e) + broadcastTo ⟨2, ![a, n]⟩ β hbβ (ix2 p e) = _
  rw [broadcastTo_a1_an_apply, broadcastTo_1b_ab_apply]
  rfl

/-- The maximum with a zero splat. -/
theorem kernel_relu (v : FVec Ideal ⟨2, ![a, n]⟩ .f32) :
    maximumf v (broadcast ⟨2, ![a, n]⟩ (Scalar.ofBits (F := Ideal) .f32 0x00000000#32)) = relu v := rfl

/-! ## The host's spelling -/

/-- The host's product with the kept column laid over the matrix, then its sum with the vector laid along the rows. -/
theorem host_scaleBias (g : FVec Ideal ⟨2, ![a, n]⟩ .f32) (s : FVec Ideal ⟨2, ![a, 1]⟩ .f32) (β : FVec Ideal ⟨1, ![n]⟩ .f32)
    (h0 : (⟨2, ![a, 1]⟩ : Shape).BroadcastsInDim ⟨2, ![a, n]⟩ ![0, 1])
    (h1 : (⟨1, ![n]⟩ : Shape).BroadcastsInDim ⟨2, ![1, n]⟩ ![1])
    (h2 : (⟨2, ![1, n]⟩ : Shape).BroadcastsInDim ⟨2, ![a, n]⟩ ![0, 1]) :
    addf (mulf g (broadcastInDim ⟨2, ![a, n]⟩ ![0, 1] h0 s))
        (broadcastInDim ⟨2, ![a, n]⟩ ![0, 1] h2 (broadcastInDim ⟨2, ![1, n]⟩ ![1] h1 β))
      = scaleBias g s β := by
  funext i
  obtain ⟨p, e, rfl⟩ : ∃ (p : Fin a) (e : Fin n), i = ix2 p e := ⟨i 0, i 1, eq_ix2 i⟩
  show g (ix2 p e) * broadcastInDim ⟨2, ![a, n]⟩ ![0, 1] h0 s (ix2 p e)
      + broadcastInDim ⟨2, ![a, n]⟩ ![0, 1] h2 (broadcastInDim ⟨2, ![1, n]⟩ ![1] h1 β) (ix2 p e) = _
  rw [broadcastInDim_a1_an_apply, broadcastInDim_row_apply]
  rfl

/-- The host's maximum with a broadcast scalar zero. -/
theorem host_relu (v : FVec Ideal ⟨2, ![a, n]⟩ .f32) (h0 : (⟨0, ![]⟩ : Shape).BroadcastsInDim ⟨2, ![a, n]⟩ ![]) :
    maximumf v (broadcastInDim ⟨2, ![a, n]⟩ ![] h0 (constant (F := Ideal) ⟨0, ![]⟩ .f32 0x00000000#32)) = relu v := by
  funext i
  show max (v i) (broadcastInDim ⟨2, ![a, n]⟩ ![] h0 (constant (F := Ideal) ⟨0, ![]⟩ .f32 0x00000000#32) i) = _
  rw [broadcastInDim_apply ![] h0 _ i ix0 (fun ax => ax.elim0)]
  rfl

end Cert.NormBias

end
-- ==== Proof.Net.lean ====
/-
  A three-layer graph convolution with symmetric degree normalisation, as whole-array functions on the extended reals.

  The graph has 100000 nodes and 1700000 edges given by two word arrays, sources and destinations. With
  deg(a)(v) = max(1, number of edges e with a(e) = v) (a sum of ones scattered to the nodes), the per-edge factor is
  the inverse square root of the out-degree picked at each edge's source, and the per-node factor is the inverse square
  root of the in-degree, kept as a column. One layer takes node features x [100000, 128], a weight W [128, 128] and a
  bias b [128]:
    h = x · W (entry (p, e) the sum over k of x(p, k) * W(k, e)),
    the rows of h picked at each edge's source and scaled by the per-edge factor, summed into each edge's destination,
    then each row p scaled by the per-node factor and b added along it; the two inner layers end with the larger of
    that and zero.
  The picking and the summing are the host's gather and scatter-add; they are carried here as the operations
  themselves, over the dimension records of whichever program spells them, and are never opened: both programs apply
  them to values that are proved equal.
-/
import Idealize.ShloMosaic.PureOps.Ideal
import proofs.«161208_j50792283243092_1_alg».proof.Proof.LibDenseSteps
import proofs.«161208_j50792283243092_1_alg».proof.Proof.LibNormBias

noncomputable section

namespace Cert.GraphNet

open Idealize.ShloMosaic Idealize.ShloMosaic.ValueIdx Cert.Layers Cert.NormBias Cert.ColsMatmul

abbrev S0 : Shape := ⟨0, ![]⟩
abbrev SN : Shape := ⟨1, ![100000]⟩
abbrev SE : Shape := ⟨1, ![1700000]⟩
abbrev SD : Shape := ⟨1, ![128]⟩
abbrev SN1 : Shape := ⟨2, ![100000, 1]⟩
abbrev SE1 : Shape := ⟨2, ![1700000, 1]⟩
abbrev SND : Shape := ⟨2, ![100000, 128]⟩
abbrev SED : Shape := ⟨2, ![1700000, 128]⟩
abbrev SDD : Shape := ⟨2, ![128, 128]⟩
abbrev S1D : Shape := ⟨2, ![1, 128]⟩

theorem h0N : S0.BroadcastsInDim SN (![] : Fin 0 → Fin SN.rank) := by decide
theorem h0E : S0.BroadcastsInDim SE (![] : Fin 0 → Fin SE.rank) := by decide
theorem h0ND : S0.BroadcastsInDim SND (![] : Fin 0 → Fin SND.rank) := by decide
theorem hE_E1 : SE.BroadcastsInDim SE1 (![0] : Fin 1 → Fin SE1.rank) := by decide
theorem hN_N1 : SN.BroadcastsInDim SN1 (![0] : Fin 1 → Fin SN1.rank) := by decide
theorem hE1_ED : SE1.BroadcastsInDim SED (![0, 1] : Fin 2 → Fin SED.rank) := by decide
theorem hN1_ND : SN1.BroadcastsInDim SND (![0, 1] : Fin 2 → Fin SND.rank) := by decide
theorem hD_1D : SD.BroadcastsInDim S1D (![1] : Fin 1 → Fin S1D.rank) := by decide
theorem h1D_ND : S1D.BroadcastsInDim SND (![0, 1] : Fin 2 → Fin SND.rank) := by decide
theorem hD_1D_cast : SD.ShapeCasts S1D := by decide
theorem wfProd : DotDims.WF SND SDD SND [1] [0] [0] [1] [] [] := by decide

section
variable (count : ScatterDims SN SE1 SE) (pick : GatherDims SN SE1 SE)
variable (rows : GatherDims SND SE1 SED) (sums : ScatterDims SND SE1 SED)

/-- The edge ends as start indices of a gather: a negative word wraps round by the node count. -/
def wrapped (a : IVec SE 32) : IVec SE1 32 :=
  broadcastInDim SE1 ![0] hE_E1
    (select (cmpi .slt a (broadcastInDim SE ![] h0E (constantI S0 32 0#32)))
      (addi a (broadcastInDim SE ![] h0E (constantI S0 32 100000#32))) a)

/-- deg(a): at each node the larger of one and the number of edges whose end a is that node. -/
def degree (a : IVec SE 32) : FVec Ideal SN .f32 :=
  maximumf (F := Ideal) (broadcastInDim SN ![] h0N (id (constant (F := Ideal) S0 .f32 0x3F800000#32)))
    (Host.scatterAdd (F := Ideal) count (broadcastInDim SN ![] h0N (constant (F := Ideal) S0 .f32 0x00000000#32))
      (broadcastInDim SE1 ![0] hE_E1 a) (broadcastInDim SE ![] h0E (constant (F := Ideal) S0 .f32 0x3F800000#32)))

/-- The per-edge factor: the inverse square root of the out-degree, picked at each edge's source. -/
def edgeFactor (src : IVec SE 32) : FVec Ideal SE .f32 :=
  Host.gather pick (Host.rsqrt (F := Ideal) (degree count src)) (wrapped src)

/-- The per-node factor, kept as a column: the inverse square root of the in-degree. -/
def nodeFactor (dst : IVec SE 32) : FVec Ideal SN1 .f32 :=
  broadcastInDim SN1 ![0] hN_N1 (Host.rsqrt (F := Ideal) (degree count dst))

/-- The rows of h picked at the edges' sources, each scaled by its edge's factor, summed into the edges' destinations. -/
def gatherSum (src dst : IVec SE 32) (f : FVec Ideal SE .f32) (h : FVec Ideal SND .f32) : FVec Ideal SND .f32 :=
  Host.scatterAdd (F := Ideal) sums (broadcastInDim SND ![] h0ND (constant (F := Ideal) S0 .f32 0x00000000#32))
    (broadcastInDim SE1 ![0] hE_E1 dst)
    (mulf (F := Ideal) (Host.gather rows h (wrapped src))
      (broadcastInDim SED ![0, 1] hE1_ED (broadcastInDim SE1 ![0] hE_E1 f)))

/-- One layer without its rectifier. -/
def layer (src dst : IVec SE 32) (x : FVec Ideal SND .f32) (W : FVec Ideal SDD .f32) (b : FVec Ideal SD .f32) :
    FVec Ideal SND .f32 :=
  scaleBias (gatherSum rows sums src dst (edgeFactor count pick src) (prod x W)) (nodeFactor count dst) b

/-- The three layers: two rectified, the last not. -/
def net (x : FVec Ideal SND .f32) (W1 : FVec Ideal SDD .f32) (b1 : FVec Ideal SD .f32) (W2 : FVec Ideal SDD .f32)
    (b2 : FVec Ideal SD .f32) (W3 : FVec Ideal SDD .f32) (b3 : FVec Ideal SD .f32) (src dst : IVec SE 32) :
    FVec Ideal SND .f32 :=
  layer count pick rows sums src dst
    (relu (layer count pick rows sums src dst (relu (layer count pick rows sums src dst x W1 b1)) W2 b2)) W3 b3

/-! ## The host's spelling of a layer -/

/-- One layer as the host program spells it: a general product, the column and the bias laid out by broadcast_in_dim. -/
def hostLayer (d : DotDims SND SDD SND) (src dst : IVec SE 32) (x : FVec Ideal SND .f32) (W : FVec Ideal SDD .f32)
    (b : FVec Ideal SD .f32) : FVec Ideal SND .f32 :=
  addf (F := Ideal)
    (mulf (F := Ideal) (gatherSum rows sums src dst (edgeFactor count pick src) (Host.dotGeneral (F := Ideal) d none x W))
      (broadcastInDim SND ![0, 1] hN1_ND (nodeFactor count dst)))
    (broadcastInDim SND ![0, 1] h1D_ND (broadcastInDim S1D ![1] hD_1D b))

/-- The host's rectifier. -/
def hostRelu (v : FVec Ideal SND .f32) : FVec Ideal SND .f32 :=
  maximumf (F := Ideal) v (broadcastInDim SND ![] h0ND (constant (F := Ideal) S0 .f32 0x00000000#32))

theorem hostLayer_eq (d : DotDims SND SDD SND) (hd : d = colsDims wfProd) (src dst : IVec SE 32) (x : FVec Ideal SND .f32)
    (W : FVec Ideal SDD .f32) (b : FVec Ideal SD .f32) :
    hostLayer count pick rows sums d src dst x W b = layer count pick rows sums src dst x W b := by
  unfold hostLayer layer
  rw [dotGeneral_eq_prod wfProd d hd x W]
  exact host_scaleBias _ _ _ hN1_ND hD_1D h1D_ND

theorem hostRelu_eq (v : FVec Ideal SND .f32) : hostRelu v = relu v := host_relu v h0ND

/-- The host's three layers are the network. -/
theorem hostNet_eq (d : DotDims SND SDD SND) (hd : d = colsDims wfProd) (x : FVec Ideal SND .f32) (W1 : FVec Ideal SDD .f32) (b1 : FVec Ideal SD .f32)
    (W2 : FVec Ideal SDD .f32) (b2 : FVec Ideal SD .f32) (W3 : FVec Ideal SDD .f32) (b3 : FVec Ideal SD .f32) (src dst : IVec SE 32) :
    hostLayer count pick rows sums d src dst
        (hostRelu (hostLayer count pick rows sums d src dst
          (hostRelu (hostLayer count pick rows sums d src dst x W1 b1)) W2 b2)) W3 b3
      = net count pick rows sums x W1 b1 W2 b2 W3 b3 src dst := by
  unfold net
  rw [hostLayer_eq count pick rows sums d hd, hostRelu_eq, hostLayer_eq count pick rows sums d hd, hostRelu_eq,
    hostLayer_eq count pick rows sums d hd]

end

end Cert.GraphNet

end
-- ==== Proof.LibAfterStages.lean ====
/-
  A straight line of host operations, read in stretches.

  The contents of a device's buffers after a list of host operations are a fold over the list. For a list that is two
  stretches one after the other, the fold is the second stretch's fold over the first's. A buffer that no operation of
  a stretch writes comes through that stretch unchanged; the tactic below proves it for a literal stretch by comparing
  the buffer with each operation's result buffer.
-/
import Idealize.ShloMosaic.Lib.StableHlo.Run

namespace Idealize.ShloMosaic.StableHlo

variable {τ : Topo} {sig : RefSig} {Val : EltTy → Type}

/-- The fold over two stretches is the second's over the first's. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- 'kept_through [L]' closes a goal 'after L V b = V b' for a literal stretch L (given by the names that unfold it)
    none of whose operations writes the buffer b. -/
macro "kept_through" "[" ds:Lean.Parser.Tactic.simpLemma,* "]" : tactic =>
  `(tactic| (
    refine after_of_forall_not_mem _ _ (List.forall_iff_forall_mem.mp ?_)
    simp only [$ds,*, List.Forall, nullary_writes, unary_writes, binary_writes, ternary_writes, quaternary_writes,
      reshape_writes, nary_writes, Finset.mem_singleton]
    repeat' apply And.intro
    all_goals exact devRef_ne_of_ne (by decide)))

end Idealize.ShloMosaic.StableHlo
-- ==== Proof.Entry.lean ====
/-
  What the first region finds: the launch arrays and the two normalising factors.

  The opening host operations run in five stretches. The first sums a vector of ones into the nodes by the edges'
  sources; the second takes the larger of that and one — the out-degree. The third and fourth do the same by the edges'
  destinations — the in-degree. The fifth takes inverse square roots, picks the out-degree's at each edge's source (the
  per-edge factor) and lays the in-degree's out as a column (the per-node factor). No operation writes an argument
  array, so each is still as launched. Each stretch is first read for arbitrary contents of the buffers it starts from,
  as a function of the few buffers it reads; the stretches are then chained from the launch memory.
-/
import proofs.«161208_j50792283243092_1_alg».proof.Proof.Gen.KernelIdeal.Frame
import proofs.«161208_j50792283243092_1_alg».proof.Proof.Net
import proofs.«161208_j50792283243092_1_alg».proof.Proof.LibAfterStages

set_option maxHeartbeats 4000000

noncomputable section

namespace Cert.KernelIdeal.Stages

open Cert.KernelIdeal Cert.KernelIdeal.Gen Idealize.ShloMosaic Idealize.ShloMosaic.TcCoe Idealize.ShloMosaic.ValueIdx
open Idealize.SL.Sem Idealize.ShloMosaic.StableHlo Cert.Layers Cert.NormBias Cert.GraphNet

variable (m : (ℓ : Loc nD τ sig) → Buf (Elt Ideal) ℓ) (ρ : Dev nD → PrngReg) (c : Dev nD)

/-- The dimension records of the kernel's program. -/
abbrev kCount := scatter_S100000_S1700000x1_S1700000_n_0_0_1
abbrev kPick := gather_S100000_S1700000x1_S1700000_n_0_n_n_0_1_1
abbrev kRows := gather_S100000x128_S1700000x1_S1700000x128_1_0_n_n_0_1_1128
abbrev kSums := scatter_S100000x128_S1700000x1_S1700000x128_1_0_0_1

/-! ## The argument arrays come through the five opening stretches -/

/-- The five opening stretches are one stretch. -/
theorem W5_eq : W5 m ρ c
    = StableHlo.after (hostOps0 ++ (hostOps0_1 ++ (hostOps0_2 ++ (hostOps0_3 ++ hostOps0_4)))) (W0 m ρ c) := by
  simp only [after_append]

theorem w5_arg0 : W5 m ρ c (Proc.devRef .tc main_arg0) = (m ((c : Thread nD τ).loc main_arg0)) := by
  rw [W5_eq]
  kept_through [hostOps0, hostOps0_1, hostOps0_2, hostOps0_3, hostOps0_4, List.cons_append, List.nil_append]
theorem w5_arg1 : W5 m ρ c (Proc.devRef .tc main_arg1) = (m ((c : Thread nD τ).loc main_arg1)) := by
  rw [W5_eq]
  kept_through [hostOps0, hostOps0_1, hostOps0_2, hostOps0_3, hostOps0_4, List.cons_append, List.nil_append]
theorem w5_arg2 : W5 m ρ c (Proc.devRef .tc main_arg2) = (m ((c : Thread nD τ).loc main_arg2)) := by
  rw [W5_eq]
  kept_through [hostOps0, hostOps0_1, hostOps0_2, hostOps0_3, hostOps0_4, List.cons_append, List.nil_append]
theorem w5_arg3 : W5 m ρ c (Proc.devRef .tc main_arg3) = (m ((c : Thread nD τ).loc main_arg3)) := by
  rw [W5_eq]
  kept_through [hostOps0, hostOps0_1, hostOps0_2, hostOps0_3, hostOps0_4, List.cons_append, List.nil_append]
theorem w5_arg4 : W5 m ρ c (Proc.devRef .tc main_arg4) = (m ((c : Thread nD τ).loc main_arg4)) := by
  rw [W5_eq]
  kept_through [hostOps0, hostOps0_1, hostOps0_2, hostOps0_3, hostOps0_4, List.cons_append, List.nil_append]
theorem w5_arg5 : W5 m ρ c (Proc.devRef .tc main_arg5) = (m ((c : Thread nD τ).loc main_arg5)) := by
  rw [W5_eq]
  kept_through [hostOps0, hostOps0_1, hostOps0_2, hostOps0_3, hostOps0_4, List.cons_append, List.nil_append]
theorem w5_arg6 : W5 m ρ c (Proc.devRef .tc main_arg6) = (m ((c : Thread nD τ).loc main_arg6)) := by
  rw [W5_eq]
  kept_through [hostOps0, hostOps0_1, hostOps0_2, hostOps0_3, hostOps0_4, List.cons_append, List.nil_append]
theorem w5_arg7 : W5 m ρ c (Proc.devRef .tc main_arg7) = (m ((c : Thread nD τ).loc main_arg7)) := by
  rw [W5_eq]
  kept_through [hostOps0, hostOps0_1, hostOps0_2, hostOps0_3, hostOps0_4, List.cons_append, List.nil_append]
theorem w5_arg8 : W5 m ρ c (Proc.devRef .tc main_arg8) = (m ((c : Thread nD τ).loc main_arg8)) := by
  rw [W5_eq]
  kept_through [hostOps0, hostOps0_1, hostOps0_2, hostOps0_3, hostOps0_4, List.cons_append, List.nil_append]

/-! ## Each opening stretch, from arbitrary contents -/

section Stretches
variable (V : Valuation τ sig (Elt Ideal))

/-- The first stretch sums a vector of ones into the nodes by the word array it finds in the sources' buffer, -/
theorem sum_by_sources (a : IVec SE 32) (h : V (Proc.devRef .tc main_arg7) = a) :
    StableHlo.after hostOps0 V (Proc.devRef .tc main_v3) = (Host.scatterAdd (F := Ideal) kCount (broadcastInDim SN ![] h0N (constant (F := Ideal) S0 .f32 0x00000000#32)) (broadcastInDim SE1 ![0] hE_E1 a) (broadcastInDim SE ![] h0E (constant (F := Ideal) S0 .f32 0x3F800000#32))) := by
  after_results_simp
  rw [h]
/-- leaves the vector of ones -/
theorem ones_kept : StableHlo.after hostOps0 V (Proc.devRef .tc main_v0) = (broadcastInDim SE ![] h0E (constant (F := Ideal) S0 .f32 0x3F800000#32)) := by
  after_results_simp
/-- and the scalar one. -/
theorem one_0 : StableHlo.after hostOps0 V (Proc.devRef .tc main_cst_1) = constant (F := Ideal) S0 .f32 0x3F800000#32 := by
  after_results_simp

/-- The second stretch takes the larger of the broadcast scalar and the sums. -/
theorem clip_0 (k : FVec Ideal S0 .f32) (v : FVec Ideal SN .f32) (hk : V (Proc.devRef .tc main_cst_1) = k) (hv : V (Proc.devRef .tc main_v3) = v) :
    StableHlo.after hostOps0_1 V (Proc.devRef .tc main_v4)
      = maximumf (F := Ideal) (φ := .f32) (broadcastInDim SN ![] h0N (id k)) v := by
  after_results_simp
  rw [hk, hv] <;> rfl

/-- The third stretch sums the vector it finds in the ones' buffer by the word array in the destinations' buffer, -/
theorem sum_by_destinations (a : IVec SE 32) (o : FVec Ideal SE .f32) (h : V (Proc.devRef .tc main_arg8) = a) (ho : V (Proc.devRef .tc main_v0) = o) :
    StableHlo.after hostOps0_2 V (Proc.devRef .tc main_v7)
      = Host.scatterAdd (F := Ideal) kCount (broadcastInDim SN ![] h0N (constant (F := Ideal) S0 .f32 0x00000000#32)) (broadcastInDim SE1 ![0] hE_E1 a) o := by
  after_results_simp
  rw [h, ho]
/-- and leaves the scalar one. -/
theorem one_1 : StableHlo.after hostOps0_2 V (Proc.devRef .tc main_cst_3) = constant (F := Ideal) S0 .f32 0x3F800000#32 := by
  after_results_simp

/-- The fourth stretch takes the larger of the broadcast scalar and the sums. -/
theorem clip_1 (k : FVec Ideal S0 .f32) (v : FVec Ideal SN .f32) (hk : V (Proc.devRef .tc main_cst_3) = k) (hv : V (Proc.devRef .tc main_v7) = v) :
    StableHlo.after hostOps0_3 V (Proc.devRef .tc main_v8)
      = maximumf (F := Ideal) (φ := .f32) (broadcastInDim SN ![] h0N (id k)) v := by
  after_results_simp
  rw [hk, hv] <;> rfl

/-- The fifth stretch picks the inverse square root of the first clipped vector at the wrapped sources, -/
theorem pick_factor (d : FVec Ideal SN .f32) (a : IVec SE 32) (hd : V (Proc.devRef .tc main_v4) = d) (ha : V (Proc.devRef .tc main_arg7) = a) :
    StableHlo.after hostOps0_4 V (Proc.devRef .tc main_v16)
      = Host.gather kPick (Host.rsqrt (F := Ideal) (φ := .f32) d) (wrapped a) := by
  after_results_simp
  rw [hd, ha] <;> rfl
/-- and lays the inverse square root of the second out as a column. -/
theorem column_factor (d : FVec Ideal SN .f32) (hd : V (Proc.devRef .tc main_v8) = d) :
    StableHlo.after hostOps0_4 V (Proc.devRef .tc main_v18)
      = broadcastInDim SN1 ![0] hN_N1 (Host.rsqrt (F := Ideal) (φ := .f32) d) := by
  after_results_simp
  rw [hd]

end Stretches

/-! ## The stretches chained from the launch memory -/

theorem w0_arg7 : W0 m ρ c (Proc.devRef .tc main_arg7) = (m ((c : Thread nD τ).loc main_arg7)) := rfl
theorem w0_arg8 : W0 m ρ c (Proc.devRef .tc main_arg8) = (m ((c : Thread nD τ).loc main_arg8)) := rfl
theorem w1_arg7 : W1 m ρ c (Proc.devRef .tc main_arg7) = (m ((c : Thread nD τ).loc main_arg7)) :=
  (show W1 m ρ c (Proc.devRef .tc main_arg7) = W0 m ρ c (Proc.devRef .tc main_arg7) from by kept_through [hostOps0]).trans (w0_arg7 m ρ c)
theorem w1_arg8 : W1 m ρ c (Proc.devRef .tc main_arg8) = (m ((c : Thread nD τ).loc main_arg8)) :=
  (show W1 m ρ c (Proc.devRef .tc main_arg8) = W0 m ρ c (Proc.devRef .tc main_arg8) from by kept_through [hostOps0]).trans (w0_arg8 m ρ c)
theorem w1_v3 : W1 m ρ c (Proc.devRef .tc main_v3) = (Host.scatterAdd (F := Ideal) kCount (broadcastInDim SN ![] h0N (constant (F := Ideal) S0 .f32 0x00000000#32)) (broadcastInDim SE1 ![0] hE_E1 (m ((c : Thread nD τ).loc main_arg7))) (broadcastInDim SE ![] h0E (constant (F := Ideal) S0 .f32 0x3F800000#32))) := sum_by_sources (W0 m ρ c) _ (w0_arg7 m ρ c)
theorem w1_v0 : W1 m ρ c (Proc.devRef .tc main_v0) = (broadcastInDim SE ![] h0E (constant (F := Ideal) S0 .f32 0x3F800000#32)) := ones_kept (W0 m ρ c)
theorem w1_cst_1 : W1 m ρ c (Proc.devRef .tc main_cst_1) = constant (F := Ideal) S0 .f32 0x3F800000#32 := one_0 (W0 m ρ c)

/-- The out-degree. -/
theorem w2_v4 : W2 m ρ c (Proc.devRef .tc main_v4) = degree kCount (m ((c : Thread nD τ).loc main_arg7)) :=
  clip_0 (W1 m ρ c) _ _ (w1_cst_1 m ρ c) (w1_v3 m ρ c)
theorem w2_arg7 : W2 m ρ c (Proc.devRef .tc main_arg7) = (m ((c : Thread nD τ).loc main_arg7)) :=
  (show W2 m ρ c (Proc.devRef .tc main_arg7) = W1 m ρ c (Proc.devRef .tc main_arg7) from by kept_through [hostOps0_1]).trans (w1_arg7 m ρ c)
theorem w2_arg8 : W2 m ρ c (Proc.devRef .tc main_arg8) = (m ((c : Thread nD τ).loc main_arg8)) :=
  (show W2 m ρ c (Proc.devRef .tc main_arg8) = W1 m ρ c (Proc.devRef .tc main_arg8) from by kept_through [hostOps0_1]).trans (w1_arg8 m ρ c)
theorem w2_v0 : W2 m ρ c (Proc.devRef .tc main_v0) = (broadcastInDim SE ![] h0E (constant (F := Ideal) S0 .f32 0x3F800000#32)) :=
  (show W2 m ρ c (Proc.devRef .tc main_v0) = W1 m ρ c (Proc.devRef .tc main_v0) from by kept_through [hostOps0_1]).trans (w1_v0 m ρ c)

theorem w3_v7 : W3 m ρ c (Proc.devRef .tc main_v7) = (Host.scatterAdd (F := Ideal) kCount (broadcastInDim SN ![] h0N (constant (F := Ideal) S0 .f32 0x00000000#32)) (broadcastInDim SE1 ![0] hE_E1 (m ((c : Thread nD τ).loc main_arg8))) (broadcastInDim SE ![] h0E (constant (F := Ideal) S0 .f32 0x3F800000#32))) :=
  sum_by_destinations (W2 m ρ c) _ _ (w2_arg8 m ρ c) (w2_v0 m ρ c)
theorem w3_cst_3 : W3 m ρ c (Proc.devRef .tc main_cst_3) = constant (F := Ideal) S0 .f32 0x3F800000#32 := one_1 (W2 m ρ c)
theorem w3_arg7 : W3 m ρ c (Proc.devRef .tc main_arg7) = (m ((c : Thread nD τ).loc main_arg7)) :=
  (show W3 m ρ c (Proc.devRef .tc main_arg7) = W2 m ρ c (Proc.devRef .tc main_arg7) from by kept_through [hostOps0_2]).trans (w2_arg7 m ρ c)
theorem w3_v4 : W3 m ρ c (Proc.devRef .tc main_v4) = degree kCount (m ((c : Thread nD τ).loc main_arg7)) :=
  (show W3 m ρ c (Proc.devRef .tc main_v4) = W2 m ρ c (Proc.devRef .tc main_v4) from by kept_through [hostOps0_2]).trans (w2_v4 m ρ c)

/-- The in-degree. -/
theorem w4_v8 : W4 m ρ c (Proc.devRef .tc main_v8) = degree kCount (m ((c : Thread nD τ).loc main_arg8)) :=
  clip_1 (W3 m ρ c) _ _ (w3_cst_3 m ρ c) (w3_v7 m ρ c)
theorem w4_arg7 : W4 m ρ c (Proc.devRef .tc main_arg7) = (m ((c : Thread nD τ).loc main_arg7)) :=
  (show W4 m ρ c (Proc.devRef .tc main_arg7) = W3 m ρ c (Proc.devRef .tc main_arg7) from by kept_through [hostOps0_3]).trans (w3_arg7 m ρ c)
theorem w4_v4 : W4 m ρ c (Proc.devRef .tc main_v4) = degree kCount (m ((c : Thread nD τ).loc main_arg7)) :=
  (show W4 m ρ c (Proc.devRef .tc main_v4) = W3 m ρ c (Proc.devRef .tc main_v4) from by kept_through [hostOps0_3]).trans (w3_v4 m ρ c)

/-- The per-edge factor. -/
theorem w5_v16 : W5 m ρ c (Proc.devRef .tc main_v16) = (edgeFactor kCount kPick (m ((c : Thread nD τ).loc main_arg7))) :=
  pick_factor (W4 m ρ c) _ _ (w4_v4 m ρ c) (w4_arg7 m ρ c)

/-- The per-node factor column. -/
theorem w5_v18 : W5 m ρ c (Proc.devRef .tc main_v18) = (nodeFactor kCount (m ((c : Thread nD τ).loc main_arg8))) :=
  column_factor (W4 m ρ c) _ (w4_v8 m ρ c)

end Cert.KernelIdeal.Stages

end
-- ==== Proof.Product0.lean ====
/-
  The dense product of layer 1, from blocks to the whole array.

  The kernel walks the 100000 rows of its left operand in 20 blocks of 5000 rows; at block t its body multiplies rows
  5000 t … 5000 t + 4999 by the whole 128 × 128 weight into a zero accumulator and writes the 5000 × 128 result back as
  block t of the output. An entry (p, e) of a product depends only on row p of the left operand and column e of the
  weight, so block t of the output is block t of the product of the whole operands; the 20 blocks tile the output, and
  the output array ends holding that product: entry (p, e) is the sum over k of x(p, k) * w(k, e). The operands are
  whatever the region finds in its arrays when it is entered.
-/
import proofs.«161208_j50792283243092_1_alg».proof.Proof.Gen.KernelIdeal.Frame
import proofs.«161208_j50792283243092_1_alg».proof.Proof.LibDenseSteps

noncomputable section

namespace Cert.KernelIdeal.Product0

open Cert.KernelIdeal Cert.KernelIdeal.Gen Idealize.ShloMosaic Idealize.ShloMosaic.TcCoe Idealize.ShloMosaic.ValueIdx
open Idealize.SL.Sem Cert.Layers Cert.ColsMatmul

variable (V : (c : Dev nD) → (b : Ref sig .tc) → Buf (Elt Ideal) ((c : Thread nD τ).loc b))

theorem zero_offsets : (![0, 0] : Fin 2 → Nat) = fun _ => 0 := funext fun a => by fin_cases a <;> rfl

/-- What the body stores: the product of the row block with the weight (a change of float format is the identity). -/
theorem payload (x0 : Vec Ideal S5000x128 .f32) (x1 : Vec Ideal S128x128 .f32) : k0_pay1 x0 x1 = prod x0 x1 := by
  unfold k0_pay1
  exact matmul_eq_prod dot_S5000x128_S128x128_S5000x128_1_0_0_1_n_n_wf dot_S5000x128_S128x128_S5000x128_1_0_0_1_n_n rfl _ _

/-- The index maps over the grid: the left operand and the output move together down the rows, block t at point t;
    the weight stays. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 20 row blocks is some point's. -/
theorem idx_onto : ∀ q : Fin 20, ∃ t : Fin cfg0.N, win0_2.index t = ![q.val, 0] :=
  (by decide +kernel : ∀ q : Fin 20, ∃ t : Fin grid0.N, win0_2.index t = ![q.val, 0])

/-- What point t writes back is block t of the product of the whole operands. -/
theorem flushed_eq (c : Dev nD) (t : Fin cfg0.N) :
    (dat0 V c).flushed 2 t
      = ((cfg0.win 2).blk t).view.read (Elt Ideal) (prod (V c main_arg0) (V c main_arg1)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x128) zero_offsets]
  rw [payload]
  obtain ⟨e0, e1, e2, e3, e4⟩ := idx_facts t
  funext j
  show prod (iblk0 V c 0 t) (iblk0 V c 1 t) j = prod (V c main_arg0) (V c main_arg1) (((cfg0.win 2).blk t).view.emb j)
  refine prod_congr _ _ _ _ j _ (fun k => ?_) (fun k => ?_)
  · show V c main_arg0 (((cfg0.win 0).blk t).view.emb (ix2 (j 0) k))
      = V c main_arg0 (ix2 ((((cfg0.win 2).blk t).view.emb j) 0) k)
    refine congrArg _ (funext fun a => Fin.ext ?_)
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 128 + 1 * k.val = k.val
      omega
  · show V c main_arg1 (((cfg0.win 1).blk t).view.emb (ix2 k (j 1)))
      = V c main_arg1 (ix2 k ((((cfg0.win 2).blk t).view.emb j) 1))
    refine congrArg _ (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An index of the output array is in point t's block iff each coordinate is in the block's range on its axis. -/
theorem mem_blk (t : Fin cfg0.N) (i : S100000x128.Idx) :
    i ∈ ((cfg0.win 2).blk t).view.set
      ↔ ∀ a : Fin 2, win0_2.index t a * S5000x128.size a ≤ (i a).val
          ∧ (i a).val < win0_2.index t a * S5000x128.size a + S5000x128.size a := by
  show i ∈ ((View.whole main_v19).slice (win0_2.rect t)).set ↔ _
  rw [View.set_slice_whole, Rect.mem_set_unit]
  exact Iff.rfl

/-- The blocks tile the output: row p lies in block p / 5000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The output array after the region: the product of the operands the region found. -/
theorem value (c : Dev nD) : (dat0 V c).arrAt 2 cfg0.N = prod (V c main_arg0) (V c main_arg1) :=
  (dat0 V c).arrAt_eq_of_cover 2 (prod (V c main_arg0) (V c main_arg1)) (fun t _ => flushed_eq V c t) cover

end Cert.KernelIdeal.Product0

end
-- ==== Proof.Combine1.lean ====
/-
  The normalisation, bias and rectifier of layer 1, from blocks to the whole array.

  The kernel walks the 100000 rows of the aggregated features in 20 blocks of 5000 rows; at block t its body takes rows
  5000 t … 5000 t + 4999 of the features, the same rows of the per-node factor (kept as a column [100000, 1]) and the
  whole bias (a one-row matrix [1, 128]), and writes back, as block t of the output, entry by entry
  max(g(p, e) * s(p, 0) + β(0, e), 0). An entry depends only on the same entry of g, its row's factor and its column's bias, so
  block t of the output is block t of that function of the whole arrays; the 20 blocks tile the output, which therefore
  ends holding it. The arrays are whatever the region finds when it is entered.
-/
import proofs.«161208_j50792283243092_1_alg».proof.Proof.Gen.KernelIdeal.Frame
import proofs.«161208_j50792283243092_1_alg».proof.Proof.LibNormBias

noncomputable section

namespace Cert.KernelIdeal.Combine1

open Cert.KernelIdeal Cert.KernelIdeal.Gen Idealize.ShloMosaic Idealize.ShloMosaic.TcCoe Idealize.ShloMosaic.ValueIdx
open Idealize.SL.Sem Cert.NormBias

variable (V : (c : Dev nD) → (b : Ref sig .tc) → Buf (Elt Ideal) ((c : Thread nD τ).loc b))

theorem zero_offsets : (![0, 0] : Fin 2 → Nat) = fun _ => 0 := funext fun a => by fin_cases a <;> rfl

/-- What the body stores, entry by entry: the block scaled row by row, the bias added along the rows, the larger of that and zero. -/
theorem payload (x0 : Vec Ideal S5000x128 .f32) (x1 : Vec Ideal S5000x1 .f32) (x2 : Vec Ideal S1x128 .f32) :
    k1_pay1 x0 x1 x2 = relu (scaleBiasRow x0 x1 x2) := by
  unfold k1_pay1
  exact congrArg relu (kernel_scaleBiasRow x0 x1 x2 _ _ _ _ _)

/-- The index maps over the grid: the features, the factor column and the output move together down the rows, block t
    at point t; the bias stays. -/
theorem idx_facts : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (1 : Fin 2) = 0 :=
  (by decide +kernel : ∀ t : Fin grid1.N, _)

/-- Every one of the 20 row blocks is some point's. -/
theorem idx_onto : ∀ q : Fin 20, ∃ t : Fin cfg1.N, win1_3.index t = ![q.val, 0] :=
  (by decide +kernel : ∀ q : Fin 20, ∃ t : Fin grid1.N, win1_3.index t = ![q.val, 0])

/-- What point t writes back is block t of the function of the whole arrays. -/
theorem flushed_eq (c : Dev nD) (t : Fin cfg1.N) :
    (dat1 V c).flushed 3 t
      = ((cfg1.win 3).blk t).view.read (Elt Ideal) (relu (scaleBiasRow (V c main_v32) (V c main_v18) (V c main_v33))) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S5000x1) zero_offsets,
    View.ld_unit_zero (S := S1x128) zero_offsets]
  rw [payload]
  obtain ⟨e0, e1, e2, e3, e4, e5, e6⟩ := idx_facts t
  funext j
  show relu (scaleBiasRow (iblk1 V c 0 t) (iblk1 V c 1 t) (iblk1 V c 2 t)) j
    = relu (scaleBiasRow (V c main_v32) (V c main_v18) (V c main_v33)) (((cfg1.win 3).blk t).view.emb j)
  refine relu_congr _ _ j _ (scaleBiasRow_congr _ _ _ _ _ _ j _ ?_ ?_ ?_)
  · show V c main_v32 (((cfg1.win 0).blk t).view.emb j) = V c main_v32 (((cfg1.win 3).blk t).view.emb j)
    refine congrArg _ (funext fun a => Fin.ext ?_)
    match a with
    | ⟨0, _⟩ =>
      show win1_0.index t (0 : Fin 2) * 5000 + 1 * (j 0).val = win1_3.index t (0 : Fin 2) * 5000 + 1 * (j 0).val
      omega
    | ⟨1, _⟩ =>
      show win1_0.index t (1 : Fin 2) * 128 + 1 * (j 1).val = win1_3.index t (1 : Fin 2) * 128 + 1 * (j 1).val
      omega
  · show V c main_v18 (((cfg1.win 1).blk t).view.emb (ix2 (j 0) (0 : Fin 1)))
      = V c main_v18 (ix2 ((((cfg1.win 3).blk t).view.emb j) 0) (0 : Fin 1))
    refine congrArg _ (funext fun a => Fin.ext ?_)
    match a with
    | ⟨0, _⟩ =>
      show win1_1.index t (0 : Fin 2) * 5000 + 1 * (j 0).val = win1_3.index t (0 : Fin 2) * 5000 + 1 * (j 0).val
      omega
    | ⟨1, _⟩ =>
      show win1_1.index t (1 : Fin 2) * 1 + 1 * 0 = 0
      omega
  · show V c main_v33 (((cfg1.win 2).blk t).view.emb (ix2 (0 : Fin 1) (j 1)))
      = V c main_v33 (ix2 (0 : Fin 1) ((((cfg1.win 3).blk t).view.emb j) 1))
    refine congrArg _ (funext fun a => Fin.ext ?_)
    match a with
    | ⟨0, _⟩ =>
      show win1_2.index t (0 : Fin 2) * 1 + 1 * 0 = 0
      omega
    | ⟨1, _⟩ =>
      show win1_2.index t (1 : Fin 2) * 128 + 1 * (j 1).val = win1_3.index t (1 : Fin 2) * 128 + 1 * (j 1).val
      omega

/-- An index of the output array is in point t's block iff each coordinate is in the block's range on its axis. -/
theorem mem_blk (t : Fin cfg1.N) (i : S100000x128.Idx) :
    i ∈ ((cfg1.win 3).blk t).view.set
      ↔ ∀ a : Fin 2, win1_3.index t a * S5000x128.size a ≤ (i a).val
          ∧ (i a).val < win1_3.index t a * S5000x128.size a + S5000x128.size a := by
  show i ∈ ((View.whole main_v34).slice (win1_3.rect t)).set ↔ _
  rw [View.set_slice_whole, Rect.mem_set_unit]
  exact Iff.rfl

/-- The blocks tile the output: row p lies in block p / 5000. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ =>
    show win1_3.index t (0 : Fin 2) * 5000 ≤ (i 0).val ∧ (i 0).val < win1_3.index t (0 : Fin 2) * 5000 + 5000
    omega
  | ⟨1, _⟩ =>
    show win1_3.index t (1 : Fin 2) * 128 ≤ (i 1).val ∧ (i 1).val < win1_3.index t (1 : Fin 2) * 128 + 128
    omega

/-- The output array after the region: that function of the arrays the region found. -/
theorem value (c : Dev nD) :
    (dat1 V c).arrAt 3 cfg1.N = relu (scaleBiasRow (V c main_v32) (V c main_v18) (V c main_v33)) :=
  (dat1 V c).arrAt_eq_of_cover 3 (relu (scaleBiasRow (V c main_v32) (V c main_v18) (V c main_v33)))
    (fun t _ => flushed_eq V c t) cover

end Cert.KernelIdeal.Combine1

end
-- ==== Proof.Layer1.lean ====
/-
  The first layer, read off the kernel's run: what each buffer the network needs holds at each segment boundary, as a
  function of the launch arrays.

  The first region leaves the product of the features with the first weight; the next stretch picks its rows at the
  edges' sources, scales them by the per-edge factor and sums them into the destinations, and lays the bias out as a
  one-row matrix; the second region scales each row by its node's factor, adds the bias and keeps the larger of that
  and zero. Every other buffer passes through a region or a stretch that does not write it.
-/
import proofs.«161208_j50792283243092_1_alg».proof.Proof.Entry
import proofs.«161208_j50792283243092_1_alg».proof.Proof.Product0
import proofs.«161208_j50792283243092_1_alg».proof.Proof.Combine1

set_option maxHeartbeats 4000000

noncomputable section

namespace Cert.KernelIdeal.Stages

open Cert.KernelIdeal Cert.KernelIdeal.Gen Idealize.ShloMosaic Idealize.ShloMosaic.TcCoe Idealize.ShloMosaic.ValueIdx
open Idealize.SL.Sem Idealize.ShloMosaic.StableHlo Cert.Layers Cert.NormBias Cert.GraphNet

variable (m : (ℓ : Loc nD τ sig) → Buf (Elt Ideal) ℓ) (ρ : Dev nD → PrngReg) (c : Dev nD)

/-! ## Region 0: the first product -/

theorem w6_v19 : W6 m ρ c (Proc.devRef .tc main_v19) = prod (m ((c : Thread nD τ).loc main_arg0)) (m ((c : Thread nD τ).loc main_arg1)) :=
  (W6_arr m ρ c 2).trans ((Product0.value (V5 m ρ) c).trans (congrArg₂ prod (w5_arg0 m ρ c) (w5_arg1 m ρ c)))

theorem w6_arg2 : W6 m ρ c (Proc.devRef .tc main_arg2) = (m ((c : Thread nD τ).loc main_arg2)) :=
  (W6_of_ne m ρ c main_arg2 (by decide)).trans (w5_arg2 m ρ c)
theorem w6_arg3 : W6 m ρ c (Proc.devRef .tc main_arg3) = (m ((c : Thread nD τ).loc main_arg3)) :=
  (W6_of_ne m ρ c main_arg3 (by decide)).trans (w5_arg3 m ρ c)
theorem w6_arg4 : W6 m ρ c (Proc.devRef .tc main_arg4) = (m ((c : Thread nD τ).loc main_arg4)) :=
  (W6_of_ne m ρ c main_arg4 (by decide)).trans (w5_arg4 m ρ c)
theorem w6_arg5 : W6 m ρ c (Proc.devRef .tc main_arg5) = (m ((c : Thread nD τ).loc main_arg5)) :=
  (W6_of_ne m ρ c main_arg5 (by decide)).trans (w5_arg5 m ρ c)
theorem w6_arg6 : W6 m ρ c (Proc.devRef .tc main_arg6) = (m ((c : Thread nD τ).loc main_arg6)) :=
  (W6_of_ne m ρ c main_arg6 (by decide)).trans (w5_arg6 m ρ c)
theorem w6_arg7 : W6 m ρ c (Proc.devRef .tc main_arg7) = (m ((c : Thread nD τ).loc main_arg7)) :=
  (W6_of_ne m ρ c main_arg7 (by decide)).trans (w5_arg7 m ρ c)
theorem w6_arg8 : W6 m ρ c (Proc.devRef .tc main_arg8) = (m ((c : Thread nD τ).loc main_arg8)) :=
  (W6_of_ne m ρ c main_arg8 (by decide)).trans (w5_arg8 m ρ c)
theorem w6_v16 : W6 m ρ c (Proc.devRef .tc main_v16) = (edgeFactor kCount kPick (m ((c : Thread nD τ).loc main_arg7))) :=
  (W6_of_ne m ρ c main_v16 (by decide)).trans (w5_v16 m ρ c)
theorem w6_v18 : W6 m ρ c (Proc.devRef .tc main_v18) = (nodeFactor kCount (m ((c : Thread nD τ).loc main_arg8))) :=
  (W6_of_ne m ρ c main_v18 (by decide)).trans (w5_v18 m ρ c)

/-! ## The stretch between: gather, scale, scatter-add; the bias as a one-row matrix -/

theorem w7_v32 : W7 m ρ c (Proc.devRef .tc main_v32)
    = gatherSum kRows kSums (m ((c : Thread nD τ).loc main_arg7)) (m ((c : Thread nD τ).loc main_arg8)) (edgeFactor kCount kPick (m ((c : Thread nD τ).loc main_arg7))) (prod (m ((c : Thread nD τ).loc main_arg0)) (m ((c : Thread nD τ).loc main_arg1))) := by
  have e : W7 m ρ c (Proc.devRef .tc main_v32)
      = gatherSum kRows kSums (W6 m ρ c (Proc.devRef .tc main_arg7)) (W6 m ρ c (Proc.devRef .tc main_arg8)) (W6 m ρ c (Proc.devRef .tc main_v16))
          (W6 m ρ c (Proc.devRef .tc main_v19)) := by
    show StableHlo.after hostOps1 (W6 m ρ c) (Proc.devRef .tc main_v32) = _
    after_results_simp <;> rfl
  rw [e, w6_arg7, w6_arg8, w6_v16, w6_v19]

theorem w7_v33 : W7 m ρ c (Proc.devRef .tc main_v33) = shapeCast S1D (m ((c : Thread nD τ).loc main_arg2)) hD_1D_cast := by
  have e : W7 m ρ c (Proc.devRef .tc main_v33) = shapeCast S1D (W6 m ρ c (Proc.devRef .tc main_arg2)) hD_1D_cast := by
    show StableHlo.after hostOps1 (W6 m ρ c) (Proc.devRef .tc main_v33) = _
    after_results_simp <;> rfl
  rw [e, w6_arg2]

theorem w7_arg3 : W7 m ρ c (Proc.devRef .tc main_arg3) = (m ((c : Thread nD τ).loc main_arg3)) :=
  (show W7 m ρ c (Proc.devRef .tc main_arg3) = W6 m ρ c (Proc.devRef .tc main_arg3) from by kept_through [hostOps1]).trans (w6_arg3 m ρ c)
theorem w7_arg4 : W7 m ρ c (Proc.devRef .tc main_arg4) = (m ((c : Thread nD τ).loc main_arg4)) :=
  (show W7 m ρ c (Proc.devRef .tc main_arg4) = W6 m ρ c (Proc.devRef .tc main_arg4) from by kept_through [hostOps1]).trans (w6_arg4 m ρ c)
theorem w7_arg5 : W7 m ρ c (Proc.devRef .tc main_arg5) = (m ((c : Thread nD τ).loc main_arg5)) :=
  (show W7 m ρ c (Proc.devRef .tc main_arg5) = W6 m ρ c (Proc.devRef .tc main_arg5) from by kept_through [hostOps1]).trans (w6_arg5 m ρ c)
theorem w7_arg6 : W7 m ρ c (Proc.devRef .tc main_arg6) = (m ((c : Thread nD τ).loc main_arg6)) :=
  (show W7 m ρ c (Proc.devRef .tc main_arg6) = W6 m ρ c (Proc.devRef .tc main_arg6) from by kept_through [hostOps1]).trans (w6_arg6 m ρ c)
theorem w7_arg7 : W7 m ρ c (Proc.devRef .tc main_arg7) = (m ((c : Thread nD τ).loc main_arg7)) :=
  (show W7 m ρ c (Proc.devRef .tc main_arg7) = W6 m ρ c (Proc.devRef .tc main_arg7) from by kept_through [hostOps1]).trans (w6_arg7 m ρ c)
theorem w7_arg8 : W7 m ρ c (Proc.devRef .tc main_arg8) = (m ((c : Thread nD τ).loc main_arg8)) :=
  (show W7 m ρ c (Proc.devRef .tc main_arg8) = W6 m ρ c (Proc.devRef .tc main_arg8) from by kept_through [hostOps1]).trans (w6_arg8 m ρ c)
theorem w7_v16 : W7 m ρ c (Proc.devRef .tc main_v16) = (edgeFactor kCount kPick (m ((c : Thread nD τ).loc main_arg7))) :=
  (show W7 m ρ c (Proc.devRef .tc main_v16) = W6 m ρ c (Proc.devRef .tc main_v16) from by kept_through [hostOps1]).trans (w6_v16 m ρ c)
theorem w7_v18 : W7 m ρ c (Proc.devRef .tc main_v18) = (nodeFactor kCount (m ((c : Thread nD τ).loc main_arg8))) :=
  (show W7 m ρ c (Proc.devRef .tc main_v18) = W6 m ρ c (Proc.devRef .tc main_v18) from by kept_through [hostOps1]).trans (w6_v18 m ρ c)

/-! ## Region 1: normalise, add the bias, rectify -/

theorem w8_v34 : W8 m ρ c (Proc.devRef .tc main_v34) = (relu (layer kCount kPick kRows kSums (m ((c : Thread nD τ).loc main_arg7)) (m ((c : Thread nD τ).loc main_arg8)) (m ((c : Thread nD τ).loc main_arg0)) (m ((c : Thread nD τ).loc main_arg1)) (m ((c : Thread nD τ).loc main_arg2)))) := by
  refine (W8_arr m ρ c 3).trans ((Combine1.value (V7 m ρ) c).trans ?_)
  rw [show V7 m ρ c main_v32 = _ from w7_v32 m ρ c, show V7 m ρ c main_v18 = _ from w7_v18 m ρ c,
    show V7 m ρ c main_v33 = _ from w7_v33 m ρ c, scaleBiasRow_row]
  rfl

theorem w8_arg3 : W8 m ρ c (Proc.devRef .tc main_arg3) = (m ((c : Thread nD τ).loc main_arg3)) :=
  (W8_of_ne m ρ c main_arg3 (by decide)).trans (w7_arg3 m ρ c)
theorem w8_arg4 : W8 m ρ c (Proc.devRef .tc main_arg4) = (m ((c : Thread nD τ).loc main_arg4)) :=
  (W8_of_ne m ρ c main_arg4 (by decide)).trans (w7_arg4 m ρ c)
theorem w8_arg5 : W8 m ρ c (Proc.devRef .tc main_arg5) = (m ((c : Thread nD τ).loc main_arg5)) :=
  (W8_of_ne m ρ c main_arg5 (by decide)).trans (w7_arg5 m ρ c)
theorem w8_arg6 : W8 m ρ c (Proc.devRef .tc main_arg6) = (m ((c : Thread nD τ).loc main_arg6)) :=
  (W8_of_ne m ρ c main_arg6 (by decide)).trans (w7_arg6 m ρ c)
theorem w8_arg7 : W8 m ρ c (Proc.devRef .tc main_arg7) = (m ((c : Thread nD τ).loc main_arg7)) :=
  (W8_of_ne m ρ c main_arg7 (by decide)).trans (w7_arg7 m ρ c)
theorem w8_arg8 : W8 m ρ c (Proc.devRef .tc main_arg8) = (m ((c : Thread nD τ).loc main_arg8)) :=
  (W8_of_ne m ρ c main_arg8 (by decide)).trans (w7_arg8 m ρ c)
theorem w8_v16 : W8 m ρ c (Proc.devRef .tc main_v16) = (edgeFactor kCount kPick (m ((c : Thread nD τ).loc main_arg7))) :=
  (W8_of_ne m ρ c main_v16 (by decide)).trans (w7_v16 m ρ c)
theorem w8_v18 : W8 m ρ c (Proc.devRef .tc main_v18) = (nodeFactor kCount (m ((c : Thread nD τ).loc main_arg8))) :=
  ((W8_arr m ρ c 1).trans (((dat1 (V7 m ρ) c).arrAt_in 1 rfl _).trans (A_eq1 (V7 m ρ) c 1))).trans (w7_v18 m ρ c)

end Cert.KernelIdeal.Stages

end
-- ==== Proof.Product2.lean ====
/-
  The dense product of layer 2, from blocks to the whole array.

  The kernel walks the 100000 rows of its left operand in 20 blocks of 5000 rows; at block t its body multiplies rows
  5000 t … 5000 t + 4999 by the whole 128 × 128 weight into a zero accumulator and writes the 5000 × 128 result back as
  block t of the output. An entry (p, e) of a product depends only on row p of the left operand and column e of the
  weight, so block t of the output is block t of the product of the whole operands; the 20 blocks tile the output, and
  the output array ends holding that product: entry (p, e) is the sum over k of x(p, k) * w(k, e). The operands are
  whatever the region finds in its arrays when it is entered.
-/
import proofs.«161208_j50792283243092_1_alg».proof.Proof.Gen.KernelIdeal.Frame
import proofs.«161208_j50792283243092_1_alg».proof.Proof.LibDenseSteps

noncomputable section

namespace Cert.KernelIdeal.Product2

open Cert.KernelIdeal Cert.KernelIdeal.Gen Idealize.ShloMosaic Idealize.ShloMosaic.TcCoe Idealize.ShloMosaic.ValueIdx
open Idealize.SL.Sem Cert.Layers Cert.ColsMatmul

variable (V : (c : Dev nD) → (b : Ref sig .tc) → Buf (Elt Ideal) ((c : Thread nD τ).loc b))

theorem zero_offsets : (![0, 0] : Fin 2 → Nat) = fun _ => 0 := funext fun a => by fin_cases a <;> rfl

/-- What the body stores: the product of the row block with the weight (a change of float format is the identity). -/
theorem payload (x0 : Vec Ideal S5000x128 .f32) (x1 : Vec Ideal S128x128 .f32) : k2_pay1 x0 x1 = prod x0 x1 := by
  unfold k2_pay1
  rw [shapeCast_self]
  exact matmul_eq_prod dot_S5000x128_S128x128_S5000x128_1_0_0_1_n_n_wf dot_S5000x128_S128x128_S5000x128_1_0_0_1_n_n rfl _ _

/-- The index maps over the grid: the left operand and the output move together down the rows, block t at point t;
    the weight stays. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0 :=
  (by decide +kernel : ∀ t : Fin grid2.N, _)

/-- Every one of the 20 row blocks is some point's. -/
theorem idx_onto : ∀ q : Fin 20, ∃ t : Fin cfg2.N, win2_2.index t = ![q.val, 0] :=
  (by decide +kernel : ∀ q : Fin 20, ∃ t : Fin grid2.N, win2_2.index t = ![q.val, 0])

/-- What point t writes back is block t of the product of the whole operands. -/
theorem flushed_eq (c : Dev nD) (t : Fin cfg2.N) :
    (dat2 V c).flushed 2 t
      = ((cfg2.win 2).blk t).view.read (Elt Ideal) (prod (V c main_v34) (V c main_arg3)) := by
  show (cfg2.win 2).cut (grid2.coords t) ((dat2 V c).after 2 t) = _
  rw [after2_2]
  unfold out2_2
  rw [View.canon_unit_zero zero_offsets]
  simp only [View.ld_unit_zero (S := S5000x128) zero_offsets, View.ld_unit_zero (S := S128x128) zero_offsets]
  rw [payload]
  obtain ⟨e0, e1, e2, e3, e4⟩ := idx_facts t
  funext j
  show prod (iblk2 V c 0 t) (iblk2 V c 1 t) j = prod (V c main_v34) (V c main_arg3) (((cfg2.win 2).blk t).view.emb j)
  refine prod_congr _ _ _ _ j _ (fun k => ?_) (fun k => ?_)
  · show V c main_v34 (((cfg2.win 0).blk t).view.emb (ix2 (j 0) k))
      = V c main_v34 (ix2 ((((cfg2.win 2).blk t).view.emb j) 0) k)
    refine congrArg _ (funext fun a => Fin.ext ?_)
    match a with
    | ⟨0, _⟩ =>
      show win2_0.index t (0 : Fin 2) * 5000 + 1 * (j 0).val = win2_2.index t (0 : Fin 2) * 5000 + 1 * (j 0).val
      omega
    | ⟨1, _⟩ =>
      show win2_0.index t (1 : Fin 2) * 128 + 1 * k.val = k.val
      omega
  · show V c main_arg3 (((cfg2.win 1).blk t).view.emb (ix2 k (j 1)))
      = V c main_arg3 (ix2 k ((((cfg2.win 2).blk t).view.emb j) 1))
    refine congrArg _ (funext fun a => Fin.ext ?_)
    match a with
    | ⟨0, _⟩ =>
      show win2_1.index t (0 : Fin 2) * 128 + 1 * k.val = k.val
      omega
    | ⟨1, _⟩ =>
      show win2_1.index t (1 : Fin 2) * 128 + 1 * (j 1).val = win2_2.index t (1 : Fin 2) * 128 + 1 * (j 1).val
      omega

/-- An index of the output array is in point t's block iff each coordinate is in the block's range on its axis. -/
theorem mem_blk (t : Fin cfg2.N) (i : S100000x128.Idx) :
    i ∈ ((cfg2.win 2).blk t).view.set
      ↔ ∀ a : Fin 2, win2_2.index t a * S5000x128.size a ≤ (i a).val
          ∧ (i a).val < win2_2.index t a * S5000x128.size a + S5000x128.size a := by
  show i ∈ ((View.whole main_v35).slice (win2_2.rect t)).set ↔ _
  rw [View.set_slice_whole, Rect.mem_set_unit]
  exact Iff.rfl

/-- The blocks tile the output: row p lies in block p / 5000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- The output array after the region: the product of the operands the region found. -/
theorem value (c : Dev nD) : (dat2 V c).arrAt 2 cfg2.N = prod (V c main_v34) (V c main_arg3) :=
  (dat2 V c).arrAt_eq_of_cover 2 (prod (V c main_v34) (V c main_arg3)) (fun t _ => flushed_eq V c t) cover

end Cert.KernelIdeal.Product2

end
-- ==== Proof.Combine3.lean ====
/-
  The normalisation, bias and rectifier of layer 2, from blocks to the whole array.

  The kernel walks the 100000 rows of the aggregated features in 20 blocks of 5000 rows; at block t its body takes rows
  5000 t … 5000 t + 4999 of the features, the same rows of the per-node factor (kept as a column [100000, 1]) and the
  whole bias (a one-row matrix [1, 128]), and writes back, as block t of the output, entry by entry
  max(g(p, e) * s(p, 0) + β(0, e), 0). An entry depends only on the same entry of g, its row's factor and its column's bias, so
  block t of the output is block t of that function of the whole arrays; the 20 blocks tile the output, which therefore
  ends holding it. The arrays are whatever the region finds when it is entered.
-/
import proofs.«161208_j50792283243092_1_alg».proof.Proof.Gen.KernelIdeal.Frame
import proofs.«161208_j50792283243092_1_alg».proof.Proof.LibNormBias

noncomputable section

namespace Cert.KernelIdeal.Combine3

open Cert.KernelIdeal Cert.KernelIdeal.Gen Idealize.ShloMosaic Idealize.ShloMosaic.TcCoe Idealize.ShloMosaic.ValueIdx
open Idealize.SL.Sem Cert.NormBias

variable (V : (c : Dev nD) → (b : Ref sig .tc) → Buf (Elt Ideal) ((c : Thread nD τ).loc b))

theorem zero_offsets : (![0, 0] : Fin 2 → Nat) = fun _ => 0 := funext fun a => by fin_cases a <;> rfl

/-- What the body stores, entry by entry: the block scaled row by row, the bias added along the rows, the larger of that and zero. -/
theorem payload (x0 : Vec Ideal S5000x128 .f32) (x1 : Vec Ideal S5000x1 .f32) (x2 : Vec Ideal S1x128 .f32) :
    k3_pay1 x0 x1 x2 = relu (scaleBiasRow x0 x1 x2) := by
  unfold k3_pay1
  exact congrArg relu (kernel_scaleBiasRow x0 x1 x2 _ _ _ _ _)

/-- The index maps over the grid: the features, the factor column and the output move together down the rows, block t
    at point t; the bias stays. -/
theorem idx_facts : ∀ t : Fin cfg3.N, win3_0.index t (0 : Fin 2) = win3_3.index t (0 : Fin 2)
    ∧ win3_0.index t (1 : Fin 2) = 0
    ∧ win3_1.index t (0 : Fin 2) = win3_3.index t (0 : Fin 2)
    ∧ win3_1.index t (1 : Fin 2) = 0
    ∧ win3_2.index t (0 : Fin 2) = 0
    ∧ win3_2.index t (1 : Fin 2) = 0
    ∧ win3_3.index t (1 : Fin 2) = 0 :=
  (by decide +kernel : ∀ t : Fin grid3.N, _)

/-- Every one of the 20 row blocks is some point's. -/
theorem idx_onto : ∀ q : Fin 20, ∃ t : Fin cfg3.N, win3_3.index t = ![q.val, 0] :=
  (by decide +kernel : ∀ q : Fin 20, ∃ t : Fin grid3.N, win3_3.index t = ![q.val, 0])

/-- What point t writes back is block t of the function of the whole arrays. -/
theorem flushed_eq (c : Dev nD) (t : Fin cfg3.N) :
    (dat3 V c).flushed 3 t
      = ((cfg3.win 3).blk t).view.read (Elt Ideal) (relu (scaleBiasRow (V c main_v48) (V c main_v18) (V c main_v49))) := by
  show (cfg3.win 3).cut (grid3.coords t) ((dat3 V c).after 3 t) = _
  rw [after3_3]
  unfold out3_3
  rw [View.canon_unit_zero zero_offsets]
  simp only [View.ld_unit_zero (S := S5000x128) zero_offsets, View.ld_unit_zero (S := S5000x1) zero_offsets,
    View.ld_unit_zero (S := S1x128) zero_offsets]
  rw [payload]
  obtain ⟨e0, e1, e2, e3, e4, e5, e6⟩ := idx_facts t
  funext j
  show relu (scaleBiasRow (iblk3 V c 0 t) (iblk3 V c 1 t) (iblk3 V c 2 t)) j
    = relu (scaleBiasRow (V c main_v48) (V c main_v18) (V c main_v49)) (((cfg3.win 3).blk t).view.emb j)
  refine relu_congr _ _ j _ (scaleBiasRow_congr _ _ _ _ _ _ j _ ?_ ?_ ?_)
  · show V c main_v48 (((cfg3.win 0).blk t).view.emb j) = V c main_v48 (((cfg3.win 3).blk t).view.emb j)
    refine congrArg _ (funext fun a => Fin.ext ?_)
    match a with
    | ⟨0, _⟩ =>
      show win3_0.index t (0 : Fin 2) * 5000 + 1 * (j 0).val = win3_3.index t (0 : Fin 2) * 5000 + 1 * (j 0).val
      omega
    | ⟨1, _⟩ =>
      show win3_0.index t (1 : Fin 2) * 128 + 1 * (j 1).val = win3_3.index t (1 : Fin 2) * 128 + 1 * (j 1).val
      omega
  · show V c main_v18 (((cfg3.win 1).blk t).view.emb (ix2 (j 0) (0 : Fin 1)))
      = V c main_v18 (ix2 ((((cfg3.win 3).blk t).view.emb j) 0) (0 : Fin 1))
    refine congrArg _ (funext fun a => Fin.ext ?_)
    match a with
    | ⟨0, _⟩ =>
      show win3_1.index t (0 : Fin 2) * 5000 + 1 * (j 0).val = win3_3.index t (0 : Fin 2) * 5000 + 1 * (j 0).val
      omega
    | ⟨1, _⟩ =>
      show win3_1.index t (1 : Fin 2) * 1 + 1 * 0 = 0
      omega
  · show V c main_v49 (((cfg3.win 2).blk t).view.emb (ix2 (0 : Fin 1) (j 1)))
      = V c main_v49 (ix2 (0 : Fin 1) ((((cfg3.win 3).blk t).view.emb j) 1))
    refine congrArg _ (funext fun a => Fin.ext ?_)
    match a with
    | ⟨0, _⟩ =>
      show win3_2.index t (0 : Fin 2) * 1 + 1 * 0 = 0
      omega
    | ⟨1, _⟩ =>
      show win3_2.index t (1 : Fin 2) * 128 + 1 * (j 1).val = win3_3.index t (1 : Fin 2) * 128 + 1 * (j 1).val
      omega

/-- An index of the output array is in point t's block iff each coordinate is in the block's range on its axis. -/
theorem mem_blk (t : Fin cfg3.N) (i : S100000x128.Idx) :
    i ∈ ((cfg3.win 3).blk t).view.set
      ↔ ∀ a : Fin 2, win3_3.index t a * S5000x128.size a ≤ (i a).val
          ∧ (i a).val < win3_3.index t a * S5000x128.size a + S5000x128.size a := by
  show i ∈ ((View.whole main_v50).slice (win3_3.rect t)).set ↔ _
  rw [View.set_slice_whole, Rect.mem_set_unit]
  exact Iff.rfl

/-- The blocks tile the output: row p lies in block p / 5000. -/
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ =>
    show win3_3.index t (0 : Fin 2) * 5000 ≤ (i 0).val ∧ (i 0).val < win3_3.index t (0 : Fin 2) * 5000 + 5000
    omega
  | ⟨1, _⟩ =>
    show win3_3.index t (1 : Fin 2) * 128 ≤ (i 1).val ∧ (i 1).val < win3_3.index t (1 : Fin 2) * 128 + 128
    omega

/-- The output array after the region: that function of the arrays the region found. -/
theorem value (c : Dev nD) :
    (dat3 V c).arrAt 3 cfg3.N = relu (scaleBiasRow (V c main_v48) (V c main_v18) (V c main_v49)) :=
  (dat3 V c).arrAt_eq_of_cover 3 (relu (scaleBiasRow (V c main_v48) (V c main_v18) (V c main_v49)))
    (fun t _ => flushed_eq V c t) cover

end Cert.KernelIdeal.Combine3

end
-- ==== Proof.Layer2.lean ====
/-
  The second layer, read off the kernel's run in the same way: the third region multiplies the first layer's rectified
  output by the second weight; the host stretch after it picks, scales and sums along the edges and lays the second
  bias out as a one-row matrix; the fourth region normalises, adds the bias and rectifies.
-/
import proofs.«161208_j50792283243092_1_alg».proof.Proof.Layer1
import proofs.«161208_j50792283243092_1_alg».proof.Proof.Product2
import proofs.«161208_j50792283243092_1_alg».proof.Proof.Combine3

set_option maxHeartbeats 4000000

noncomputable section

namespace Cert.KernelIdeal.Stages

open Cert.KernelIdeal Cert.KernelIdeal.Gen Idealize.ShloMosaic Idealize.ShloMosaic.TcCoe Idealize.ShloMosaic.ValueIdx
open Idealize.SL.Sem Idealize.ShloMosaic.StableHlo Cert.Layers Cert.NormBias Cert.GraphNet

variable (m : (ℓ : Loc nD τ sig) → Buf (Elt Ideal) ℓ) (ρ : Dev nD → PrngReg) (c : Dev nD)

/-! ## Region 2: the second product -/

theorem w9_v35 : W9 m ρ c (Proc.devRef .tc main_v35) = prod (relu (layer kCount kPick kRows kSums (m ((c : Thread nD τ).loc main_arg7)) (m ((c : Thread nD τ).loc main_arg8)) (m ((c : Thread nD τ).loc main_arg0)) (m ((c : Thread nD τ).loc main_arg1)) (m ((c : Thread nD τ).loc main_arg2)))) (m ((c : Thread nD τ).loc main_arg3)) :=
  (W9_arr m ρ c 2).trans ((Product2.value (V8 m ρ) c).trans (congrArg₂ prod (w8_v34 m ρ c) (w8_arg3 m ρ c)))

theorem w9_arg4 : W9 m ρ c (Proc.devRef .tc main_arg4) = (m ((c : Thread nD τ).loc main_arg4)) :=
  (W9_of_ne m ρ c main_arg4 (by decide)).trans (w8_arg4 m ρ c)
theorem w9_arg5 : W9 m ρ c (Proc.devRef .tc main_arg5) = (m ((c : Thread nD τ).loc main_arg5)) :=
  (W9_of_ne m ρ c main_arg5 (by decide)).trans (w8_arg5 m ρ c)
theorem w9_arg6 : W9 m ρ c (Proc.devRef .tc main_arg6) = (m ((c : Thread nD τ).loc main_arg6)) :=
  (W9_of_ne m ρ c main_arg6 (by decide)).trans (w8_arg6 m ρ c)
theorem w9_arg7 : W9 m ρ c (Proc.devRef .tc main_arg7) = (m ((c : Thread nD τ).loc main_arg7)) :=
  (W9_of_ne m ρ c main_arg7 (by decide)).trans (w8_arg7 m ρ c)
theorem w9_arg8 : W9 m ρ c (Proc.devRef .tc main_arg8) = (m ((c : Thread nD τ).loc main_arg8)) :=
  (W9_of_ne m ρ c main_arg8 (by decide)).trans (w8_arg8 m ρ c)
theorem w9_v16 : W9 m ρ c (Proc.devRef .tc main_v16) = (edgeFactor kCount kPick (m ((c : Thread nD τ).loc main_arg7))) :=
  (W9_of_ne m ρ c main_v16 (by decide)).trans (w8_v16 m ρ c)
theorem w9_v18 : W9 m ρ c (Proc.devRef .tc main_v18) = (nodeFactor kCount (m ((c : Thread nD τ).loc main_arg8))) :=
  (W9_of_ne m ρ c main_v18 (by decide)).trans (w8_v18 m ρ c)

/-! ## The stretch between -/

theorem w10_v48 : W10 m ρ c (Proc.devRef .tc main_v48)
    = gatherSum kRows kSums (m ((c : Thread nD τ).loc main_arg7)) (m ((c : Thread nD τ).loc main_arg8)) (edgeFactor kCount kPick (m ((c : Thread nD τ).loc main_arg7))) (prod (relu (layer kCount kPick kRows kSums (m ((c : Thread nD τ).loc main_arg7)) (m ((c : Thread nD τ).loc main_arg8)) (m ((c : Thread nD τ).loc main_arg0)) (m ((c : Thread nD τ).loc main_arg1)) (m ((c : Thread nD τ).loc main_arg2)))) (m ((c : Thread nD τ).loc main_arg3))) := by
  have e : W10 m ρ c (Proc.devRef .tc main_v48)
      = gatherSum kRows kSums (W9 m ρ c (Proc.devRef .tc main_arg7)) (W9 m ρ c (Proc.devRef .tc main_arg8)) (W9 m ρ c (Proc.devRef .tc main_v16))
          (W9 m ρ c (Proc.devRef .tc main_v35)) := by
    show StableHlo.after hostOps3 (W9 m ρ c) (Proc.devRef .tc main_v48) = _
    after_results_simp <;> rfl
  rw [e, w9_arg7, w9_arg8, w9_v16, w9_v35]

theorem w10_v49 : W10 m ρ c (Proc.devRef .tc main_v49) = shapeCast S1D (m ((c : Thread nD τ).loc main_arg4)) hD_1D_cast := by
  have e : W10 m ρ c (Proc.devRef .tc main_v49) = shapeCast S1D (W9 m ρ c (Proc.devRef .tc main_arg4)) hD_1D_cast := by
    show StableHlo.after hostOps3 (W9 m ρ c) (Proc.devRef .tc main_v49) = _
    after_results_simp <;> rfl
  rw [e, w9_arg4]

theorem w10_arg5 : W10 m ρ c (Proc.devRef .tc main_arg5) = (m ((c : Thread nD τ).loc main_arg5)) :=
  (show W10 m ρ c (Proc.devRef .tc main_arg5) = W9 m ρ c (Proc.devRef .tc main_arg5) from by kept_through [hostOps3]).trans (w9_arg5 m ρ c)
theorem w10_arg6 : W10 m ρ c (Proc.devRef .tc main_arg6) = (m ((c : Thread nD τ).loc main_arg6)) :=
  (show W10 m ρ c (Proc.devRef .tc main_arg6) = W9 m ρ c (Proc.devRef .tc main_arg6) from by kept_through [hostOps3]).trans (w9_arg6 m ρ c)
theorem w10_arg7 : W10 m ρ c (Proc.devRef .tc main_arg7) = (m ((c : Thread nD τ).loc main_arg7)) :=
  (show W10 m ρ c (Proc.devRef .tc main_arg7) = W9 m ρ c (Proc.devRef .tc main_arg7) from by kept_through [hostOps3]).trans (w9_arg7 m ρ c)
theorem w10_arg8 : W10 m ρ c (Proc.devRef .tc main_arg8) = (m ((c : Thread nD τ).loc main_arg8)) :=
  (show W10 m ρ c (Proc.devRef .tc main_arg8) = W9 m ρ c (Proc.devRef .tc main_arg8) from by kept_through [hostOps3]).trans (w9_arg8 m ρ c)
theorem w10_v16 : W10 m ρ c (Proc.devRef .tc main_v16) = (edgeFactor kCount kPick (m ((c : Thread nD τ).loc main_arg7))) :=
  (show W10 m ρ c (Proc.devRef .tc main_v16) = W9 m ρ c (Proc.devRef .tc main_v16) from by kept_through [hostOps3]).trans (w9_v16 m ρ c)
theorem w10_v18 : W10 m ρ c (Proc.devRef .tc main_v18) = (nodeFactor kCount (m ((c : Thread nD τ).loc main_arg8))) :=
  (show W10 m ρ c (Proc.devRef .tc main_v18) = W9 m ρ c (Proc.devRef .tc main_v18) from by kept_through [hostOps3]).trans (w9_v18 m ρ c)

/-! ## Region 3: normalise, add the bias, rectify -/

theorem w11_v50 : W11 m ρ c (Proc.devRef .tc main_v50) = (relu (layer kCount kPick kRows kSums (m ((c : Thread nD τ).loc main_arg7)) (m ((c : Thread nD τ).loc main_arg8)) (relu (layer kCount kPick kRows kSums (m ((c : Thread nD τ).loc main_arg7)) (m ((c : Thread nD τ).loc main_arg8)) (m ((c : Thread nD τ).loc main_arg0)) (m ((c : Thread nD τ).loc main_arg1)) (m ((c : Thread nD τ).loc main_arg2)))) (m ((c : Thread nD τ).loc main_arg3)) (m ((c : Thread nD τ).loc main_arg4)))) := by
  refine (W11_arr m ρ c 3).trans ((Combine3.value (V10 m ρ) c).trans ?_)
  rw [show V10 m ρ c main_v48 = _ from w10_v48 m ρ c, show V10 m ρ c main_v18 = _ from w10_v18 m ρ c,
    show V10 m ρ c main_v49 = _ from w10_v49 m ρ c, scaleBiasRow_row]
  rfl

theorem w11_arg5 : W11 m ρ c (Proc.devRef .tc main_arg5) = (m ((c : Thread nD τ).loc main_arg5)) :=
  (W11_of_ne m ρ c main_arg5 (by decide)).trans (w10_arg5 m ρ c)
theorem w11_arg6 : W11 m ρ c (Proc.devRef .tc main_arg6) = (m ((c : Thread nD τ).loc main_arg6)) :=
  (W11_of_ne m ρ c main_arg6 (by decide)).trans (w10_arg6 m ρ c)
theorem w11_arg7 : W11 m ρ c (Proc.devRef .tc main_arg7) = (m ((c : Thread nD τ).loc main_arg7)) :=
  (W11_of_ne m ρ c main_arg7 (by decide)).trans (w10_arg7 m ρ c)
theorem w11_arg8 : W11 m ρ c (Proc.devRef .tc main_arg8) = (m ((c : Thread nD τ).loc main_arg8)) :=
  (W11_of_ne m ρ c main_arg8 (by decide)).trans (w10_arg8 m ρ c)
theorem w11_v16 : W11 m ρ c (Proc.devRef .tc main_v16) = (edgeFactor kCount kPick (m ((c : Thread nD τ).loc main_arg7))) :=
  (W11_of_ne m ρ c main_v16 (by decide)).trans (w10_v16 m ρ c)
theorem w11_v18 : W11 m ρ c (Proc.devRef .tc main_v18) = (nodeFactor kCount (m ((c : Thread nD τ).loc main_arg8))) :=
  ((W11_arr m ρ c 1).trans (((dat3 (V10 m ρ) c).arrAt_in 1 rfl _).trans (A_eq3 (V10 m ρ) c 1))).trans (w10_v18 m ρ c)

end Cert.KernelIdeal.Stages

end
-- ==== Proof.Product4.lean ====
/-
  The dense product of layer 3, from blocks to the whole array.

  The kernel walks the 100000 rows of its left operand in 20 blocks of 5000 rows; at block t its body multiplies rows
  5000 t … 5000 t + 4999 by the whole 128 × 128 weight into a zero accumulator and writes the 5000 × 128 result back as
  block t of the output. An entry (p, e) of a product depends only on row p of the left operand and column e of the
  weight, so block t of the output is block t of the product of the whole operands; the 20 blocks tile the output, and
  the output array ends holding that product: entry (p, e) is the sum over k of x(p, k) * w(k, e). The operands are
  whatever the region finds in its arrays when it is entered.
-/
import proofs.«161208_j50792283243092_1_alg».proof.Proof.Gen.KernelIdeal.Frame
import proofs.«161208_j50792283243092_1_alg».proof.Proof.LibDenseSteps

noncomputable section

namespace Cert.KernelIdeal.Product4

open Cert.KernelIdeal Cert.KernelIdeal.Gen Idealize.ShloMosaic Idealize.ShloMosaic.TcCoe Idealize.ShloMosaic.ValueIdx
open Idealize.SL.Sem Cert.Layers Cert.ColsMatmul

variable (V : (c : Dev nD) → (b : Ref sig .tc) → Buf (Elt Ideal) ((c : Thread nD τ).loc b))

theorem zero_offsets : (![0, 0] : Fin 2 → Nat) = fun _ => 0 := funext fun a => by fin_cases a <;> rfl

/-- What the body stores: the product of the row block with the weight (a change of float format is the identity). -/
theorem payload (x0 : Vec Ideal S5000x128 .f32) (x1 : Vec Ideal S128x128 .f32) : k4_pay1 x0 x1 = prod x0 x1 := by
  unfold k4_pay1
  rw [shapeCast_self]
  exact matmul_eq_prod dot_S5000x128_S128x128_S5000x128_1_0_0_1_n_n_wf dot_S5000x128_S128x128_S5000x128_1_0_0_1_n_n rfl _ _

/-- The index maps over the grid: the left operand and the output move together down the rows, block t at point t;
    the weight stays. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (1 : Fin 2) = 0 :=
  (by decide +kernel : ∀ t : Fin grid4.N, _)

/-- Every one of the 20 row blocks is some point's. -/
theorem idx_onto : ∀ q : Fin 20, ∃ t : Fin cfg4.N, win4_2.index t = ![q.val, 0] :=
  (by decide +kernel : ∀ q : Fin 20, ∃ t : Fin grid4.N, win4_2.index t = ![q.val, 0])

/-- What point t writes back is block t of the product of the whole operands. -/
theorem flushed_eq (c : Dev nD) (t : Fin cfg4.N) :
    (dat4 V c).flushed 2 t
      = ((cfg4.win 2).blk t).view.read (Elt Ideal) (prod (V c main_v50) (V c main_arg5)) := by
  show (cfg4.win 2).cut (grid4.coords t) ((dat4 V c).after 2 t) = _
  rw [after4_2]
  unfold out4_2
  rw [View.canon_unit_zero zero_offsets]
  simp only [View.ld_unit_zero (S := S5000x128) zero_offsets, View.ld_unit_zero (S := S128x128) zero_offsets]
  rw [payload]
  obtain ⟨e0, e1, e2, e3, e4⟩ := idx_facts t
  funext j
  show prod (iblk4 V c 0 t) (iblk4 V c 1 t) j = prod (V c main_v50) (V c main_arg5) (((cfg4.win 2).blk t).view.emb j)
  refine prod_congr _ _ _ _ j _ (fun k => ?_) (fun k => ?_)
  · show V c main_v50 (((cfg4.win 0).blk t).view.emb (ix2 (j 0) k))
      = V c main_v50 (ix2 ((((cfg4.win 2).blk t).view.emb j) 0) k)
    refine congrArg _ (funext fun a => Fin.ext ?_)
    match a with
    | ⟨0, _⟩ =>
      show win4_0.index t (0 : Fin 2) * 5000 + 1 * (j 0).val = win4_2.index t (0 : Fin 2) * 5000 + 1 * (j 0).val
      omega
    | ⟨1, _⟩ =>
      show win4_0.index t (1 : Fin 2) * 128 + 1 * k.val = k.val
      omega
  · show V c main_arg5 (((cfg4.win 1).blk t).view.emb (ix2 k (j 1)))
      = V c main_arg5 (ix2 k ((((cfg4.win 2).blk t).view.emb j) 1))
    refine congrArg _ (funext fun a => Fin.ext ?_)
    match a with
    | ⟨0, _⟩ =>
      show win4_1.index t (0 : Fin 2) * 128 + 1 * k.val = k.val
      omega
    | ⟨1, _⟩ =>
      show win4_1.index t (1 : Fin 2) * 128 + 1 * (j 1).val = win4_2.index t (1 : Fin 2) * 128 + 1 * (j 1).val
      omega

/-- An index of the output array is in point t's block iff each coordinate is in the block's range on its axis. -/
theorem mem_blk (t : Fin cfg4.N) (i : S100000x128.Idx) :
    i ∈ ((cfg4.win 2).blk t).view.set
      ↔ ∀ a : Fin 2, win4_2.index t a * S5000x128.size a ≤ (i a).val
          ∧ (i a).val < win4_2.index t a * S5000x128.size a + S5000x128.size a := by
  show i ∈ ((View.whole main_v51).slice (win4_2.rect t)).set ↔ _
  rw [View.set_slice_whole, Rect.mem_set_unit]
  exact Iff.rfl

/-- The blocks tile the output: row p lies in block p / 5000. -/
theorem cover (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := idx_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 128 ≤ (i 1).val ∧ (i 1).val < win4_2.index t (1 : Fin 2) * 128 + 128
    omega

/-- The output array after the region: the product of the operands the region found. -/
theorem value (c : Dev nD) : (dat4 V c).arrAt 2 cfg4.N = prod (V c main_v50) (V c main_arg5) :=
  (dat4 V c).arrAt_eq_of_cover 2 (prod (V c main_v50) (V c main_arg5)) (fun t _ => flushed_eq V c t) cover

end Cert.KernelIdeal.Product4

end
-- ==== Proof.Combine5.lean ====
/-
  The normalisation, bias of layer 3, from blocks to the whole array.

  The kernel walks the 100000 rows of the aggregated features in 20 blocks of 5000 rows; at block t its body takes rows
  5000 t … 5000 t + 4999 of the features, the same rows of the per-node factor (kept as a column [100000, 1]) and the
  whole bias (a one-row matrix [1, 128]), and writes back, as block t of the output, entry by entry
  g(p, e) * s(p, 0) + β(0, e). An entry depends only on the same entry of g, its row's factor and its column's bias, so
  block t of the output is block t of that function of the whole arrays; the 20 blocks tile the output, which therefore
  ends holding it. The arrays are whatever the region finds when it is entered.
-/
import proofs.«161208_j50792283243092_1_alg».proof.Proof.Gen.KernelIdeal.Frame
import proofs.«161208_j50792283243092_1_alg».proof.Proof.LibNormBias

noncomputable section

namespace Cert.KernelIdeal.Combine5

open Cert.KernelIdeal Cert.KernelIdeal.Gen Idealize.ShloMosaic Idealize.ShloMosaic.TcCoe Idealize.ShloMosaic.ValueIdx
open Idealize.SL.Sem Cert.NormBias

variable (V : (c : Dev nD) → (b : Ref sig .tc) → Buf (Elt Ideal) ((c : Thread nD τ).loc b))

theorem zero_offsets : (![0, 0] : Fin 2 → Nat) = fun _ => 0 := funext fun a => by fin_cases a <;> rfl

/-- What the body stores, entry by entry: the block scaled row by row, the bias added along the rows. -/
theorem payload (x0 : Vec Ideal S5000x128 .f32) (x1 : Vec Ideal S5000x1 .f32) (x2 : Vec Ideal S1x128 .f32) :
    k5_pay1 x0 x1 x2 = scaleBiasRow x0 x1 x2 := by
  unfold k5_pay1
  exact kernel_scaleBiasRow x0 x1 x2 _ _ _ _ _

/-- The index maps over the grid: the features, the factor column and the output move together down the rows, block t
    at point t; the bias stays. -/
theorem idx_facts : ∀ t : Fin cfg5.N, win5_0.index t (0 : Fin 2) = win5_3.index t (0 : Fin 2)
    ∧ win5_0.index t (1 : Fin 2) = 0
    ∧ win5_1.index t (0 : Fin 2) = win5_3.index t (0 : Fin 2)
    ∧ win5_1.index t (1 : Fin 2) = 0
    ∧ win5_2.index t (0 : Fin 2) = 0
    ∧ win5_2.index t (1 : Fin 2) = 0
    ∧ win5_3.index t (1 : Fin 2) = 0 :=
  (by decide +kernel : ∀ t : Fin grid5.N, _)

/-- Every one of the 20 row blocks is some point's. -/
theorem idx_onto : ∀ q : Fin 20, ∃ t : Fin cfg5.N, win5_3.index t = ![q.val, 0] :=
  (by decide +kernel : ∀ q : Fin 20, ∃ t : Fin grid5.N, win5_3.index t = ![q.val, 0])

/-- What point t writes back is block t of the function of the whole arrays. -/
theorem flushed_eq (c : Dev nD) (t : Fin cfg5.N) :
    (dat5 V c).flushed 3 t
      = ((cfg5.win 3).blk t).view.read (Elt Ideal) (scaleBiasRow (V c main_v64) (V c main_v18) (V c main_v65)) := by
  show (cfg5.win 3).cut (grid5.coords t) ((dat5 V c).after 3 t) = _
  rw [after5_3]
  unfold out5_3
  rw [View.canon_unit_zero zero_offsets]
  simp only [View.ld_unit_zero (S := S5000x128) zero_offsets, View.ld_unit_zero (S := S5000x1) zero_offsets,
    View.ld_unit_zero (S := S1x128) zero_offsets]
  rw [payload]
  obtain ⟨e0, e1, e2, e3, e4, e5, e6⟩ := idx_facts t
  funext j
  show scaleBiasRow (iblk5 V c 0 t) (iblk5 V c 1 t) (iblk5 V c 2 t) j
    = scaleBiasRow (V c main_v64) (V c main_v18) (V c main_v65) (((cfg5.win 3).blk t).view.emb j)
  refine (scaleBiasRow_congr _ _ _ _ _ _ j _ ?_ ?_ ?_)
  · show V c main_v64 (((cfg5.win 0).blk t).view.emb j) = V c main_v64 (((cfg5.win 3).blk t).view.emb j)
    refine congrArg _ (funext fun a => Fin.ext ?_)
    match a with
    | ⟨0, _⟩ =>
      show win5_0.index t (0 : Fin 2) * 5000 + 1 * (j 0).val = win5_3.index t (0 : Fin 2) * 5000 + 1 * (j 0).val
      omega
    | ⟨1, _⟩ =>
      show win5_0.index t (1 : Fin 2) * 128 + 1 * (j 1).val = win5_3.index t (1 : Fin 2) * 128 + 1 * (j 1).val
      omega
  · show V c main_v18 (((cfg5.win 1).blk t).view.emb (ix2 (j 0) (0 : Fin 1)))
      = V c main_v18 (ix2 ((((cfg5.win 3).blk t).view.emb j) 0) (0 : Fin 1))
    refine congrArg _ (funext fun a => Fin.ext ?_)
    match a with
    | ⟨0, _⟩ =>
      show win5_1.index t (0 : Fin 2) * 5000 + 1 * (j 0).val = win5_3.index t (0 : Fin 2) * 5000 + 1 * (j 0).val
      omega
    | ⟨1, _⟩ =>
      show win5_1.index t (1 : Fin 2) * 1 + 1 * 0 = 0
      omega
  · show V c main_v65 (((cfg5.win 2).blk t).view.emb (ix2 (0 : Fin 1) (j 1)))
      = V c main_v65 (ix2 (0 : Fin 1) ((((cfg5.win 3).blk t).view.emb j) 1))
    refine congrArg _ (funext fun a => Fin.ext ?_)
    match a with
    | ⟨0, _⟩ =>
      show win5_2.index t (0 : Fin 2) * 1 + 1 * 0 = 0
      omega
    | ⟨1, _⟩ =>
      show win5_2.index t (1 : Fin 2) * 128 + 1 * (j 1).val = win5_3.index t (1 : Fin 2) * 128 + 1 * (j 1).val
      omega

/-- An index of the output array is in point t's block iff each coordinate is in the block's range on its axis. -/
theorem mem_blk (t : Fin cfg5.N) (i : S100000x128.Idx) :
    i ∈ ((cfg5.win 3).blk t).view.set
      ↔ ∀ a : Fin 2, win5_3.index t a * S5000x128.size a ≤ (i a).val
          ∧ (i a).val < win5_3.index t a * S5000x128.size a + S5000x128.size a := by
  show i ∈ ((View.whole main_v66).slice (win5_3.rect t)).set ↔ _
  rw [View.set_slice_whole, Rect.mem_set_unit]
  exact Iff.rfl

/-- The blocks tile the output: row p lies in block p / 5000. -/
theorem cover (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ := idx_onto ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk]
  intro a
  match a with
  | ⟨0, _⟩ =>
    show win5_3.index t (0 : Fin 2) * 5000 ≤ (i 0).val ∧ (i 0).val < win5_3.index t (0 : Fin 2) * 5000 + 5000
    omega
  | ⟨1, _⟩ =>
    show win5_3.index t (1 : Fin 2) * 128 ≤ (i 1).val ∧ (i 1).val < win5_3.index t (1 : Fin 2) * 128 + 128
    omega

/-- The output array after the region: that function of the arrays the region found. -/
theorem value (c : Dev nD) :
    (dat5 V c).arrAt 3 cfg5.N = scaleBiasRow (V c main_v64) (V c main_v18) (V c main_v65) :=
  (dat5 V c).arrAt_eq_of_cover 3 (scaleBiasRow (V c main_v64) (V c main_v18) (V c main_v65))
    (fun t _ => flushed_eq V c t) cover

end Cert.KernelIdeal.Combine5

end
-- ==== Proof.Layer3.lean ====
/-
  The third layer, read off the kernel's run: the fifth region multiplies the second layer's rectified output by the
  third weight; the last host stretch picks, scales and sums along the edges and lays the third bias out as a one-row
  matrix; the sixth region normalises and adds the bias, with no rectifier. What it leaves in the result buffer is the
  three-layer network of the launch arrays.
-/
import proofs.«161208_j50792283243092_1_alg».proof.Proof.Layer2
import proofs.«161208_j50792283243092_1_alg».proof.Proof.Product4
import proofs.«161208_j50792283243092_1_alg».proof.Proof.Combine5

set_option maxHeartbeats 4000000

noncomputable section

namespace Cert.KernelIdeal.Stages

open Cert.KernelIdeal Cert.KernelIdeal.Gen Idealize.ShloMosaic Idealize.ShloMosaic.TcCoe Idealize.ShloMosaic.ValueIdx
open Idealize.SL.Sem Idealize.ShloMosaic.StableHlo Cert.Layers Cert.NormBias Cert.GraphNet

variable (m : (ℓ : Loc nD τ sig) → Buf (Elt Ideal) ℓ) (ρ : Dev nD → PrngReg) (c : Dev nD)

/-! ## Region 4: the third product -/

theorem w12_v51 : W12 m ρ c (Proc.devRef .tc main_v51) = prod (relu (layer kCount kPick kRows kSums (m ((c : Thread nD τ).loc main_arg7)) (m ((c : Thread nD τ).loc main_arg8)) (relu (layer kCount kPick kRows kSums (m ((c : Thread nD τ).loc main_arg7)) (m ((c : Thread nD τ).loc main_arg8)) (m ((c : Thread nD τ).loc main_arg0)) (m ((c : Thread nD τ).loc main_arg1)) (m ((c : Thread nD τ).loc main_arg2)))) (m ((c : Thread nD τ).loc main_arg3)) (m ((c : Thread nD τ).loc main_arg4)))) (m ((c : Thread nD τ).loc main_arg5)) :=
  (W12_arr m ρ c 2).trans ((Product4.value (V11 m ρ) c).trans (congrArg₂ prod (w11_v50 m ρ c) (w11_arg5 m ρ c)))

theorem w12_arg6 : W12 m ρ c (Proc.devRef .tc main_arg6) = (m ((c : Thread nD τ).loc main_arg6)) :=
  (W12_of_ne m ρ c main_arg6 (by decide)).trans (w11_arg6 m ρ c)
theorem w12_arg7 : W12 m ρ c (Proc.devRef .tc main_arg7) = (m ((c : Thread nD τ).loc main_arg7)) :=
  (W12_of_ne m ρ c main_arg7 (by decide)).trans (w11_arg7 m ρ c)
theorem w12_arg8 : W12 m ρ c (Proc.devRef .tc main_arg8) = (m ((c : Thread nD τ).loc main_arg8)) :=
  (W12_of_ne m ρ c main_arg8 (by decide)).trans (w11_arg8 m ρ c)
theorem w12_v16 : W12 m ρ c (Proc.devRef .tc main_v16) = (edgeFactor kCount kPick (m ((c : Thread nD τ).loc main_arg7))) :=
  (W12_of_ne m ρ c main_v16 (by decide)).trans (w11_v16 m ρ c)
theorem w12_v18 : W12 m ρ c (Proc.devRef .tc main_v18) = (nodeFactor kCount (m ((c : Thread nD τ).loc main_arg8))) :=
  (W12_of_ne m ρ c main_v18 (by decide)).trans (w11_v18 m ρ c)

/-! ## The last stretch -/

theorem w13_v64 : W13 m ρ c (Proc.devRef .tc main_v64)
    = gatherSum kRows kSums (m ((c : Thread nD τ).loc main_arg7)) (m ((c : Thread nD τ).loc main_arg8)) (edgeFactor kCount kPick (m ((c : Thread nD τ).loc main_arg7))) (prod (relu (layer kCount kPick kRows kSums (m ((c : Thread nD τ).loc main_arg7)) (m ((c : Thread nD τ).loc main_arg8)) (relu (layer kCount kPick kRows kSums (m ((c : Thread nD τ).loc main_arg7)) (m ((c : Thread nD τ).loc main_arg8)) (m ((c : Thread nD τ).loc main_arg0)) (m ((c : Thread nD τ).loc main_arg1)) (m ((c : Thread nD τ).loc main_arg2)))) (m ((c : Thread nD τ).loc main_arg3)) (m ((c : Thread nD τ).loc main_arg4)))) (m ((c : Thread nD τ).loc main_arg5))) := by
  have e : W13 m ρ c (Proc.devRef .tc main_v64)
      = gatherSum kRows kSums (W12 m ρ c (Proc.devRef .tc main_arg7)) (W12 m ρ c (Proc.devRef .tc main_arg8)) (W12 m ρ c (Proc.devRef .tc main_v16))
          (W12 m ρ c (Proc.devRef .tc main_v51)) := by
    show StableHlo.after hostOps5 (W12 m ρ c) (Proc.devRef .tc main_v64) = _
    after_results_simp <;> rfl
  rw [e, w12_arg7, w12_arg8, w12_v16, w12_v51]

theorem w13_v65 : W13 m ρ c (Proc.devRef .tc main_v65) = shapeCast S1D (m ((c : Thread nD τ).loc main_arg6)) hD_1D_cast := by
  have e : W13 m ρ c (Proc.devRef .tc main_v65) = shapeCast S1D (W12 m ρ c (Proc.devRef .tc main_arg6)) hD_1D_cast := by
    show StableHlo.after hostOps5 (W12 m ρ c) (Proc.devRef .tc main_v65) = _
    after_results_simp <;> rfl
  rw [e, w12_arg6]

theorem w13_v18 : W13 m ρ c (Proc.devRef .tc main_v18) = (nodeFactor kCount (m ((c : Thread nD τ).loc main_arg8))) :=
  (show W13 m ρ c (Proc.devRef .tc main_v18) = W12 m ρ c (Proc.devRef .tc main_v18) from by kept_through [hostOps5]).trans (w12_v18 m ρ c)

/-! ## Region 5: normalise and add the bias — the result -/

/-- The result buffer at the last boundary holds the network of the launch arrays. -/
theorem result : W14 m ρ c (Proc.devRef .tc main_v66)
    = net kCount kPick kRows kSums (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W14_arr m ρ c 3).trans ((Combine5.value (V13 m ρ) c).trans ?_)
  rw [show V13 m ρ c main_v64 = _ from w13_v64 m ρ c, show V13 m ρ c main_v18 = _ from w13_v18 m ρ c,
    show V13 m ρ c main_v65 = _ from w13_v65 m ρ c, scaleBiasRow_row]
  rfl

end Cert.KernelIdeal.Stages

end
-- ==== Proof.RefValue.lean ====
/-
  The reference's result is the network.

  The reference's run ends with its result at one composed term of the launch arrays: three times over, a general
  product contracting the features' columns with the weight's rows, the rows picked at the edges' sources, scaled by
  the per-edge factor and summed into the destinations, the per-node factor column and the bias laid over the matrix
  and multiplied in and added, and after the first two layers the larger of that and a broadcast zero. That term is,
  by unfolding, the host's spelling of the three layers; the general product is the sum over k of x(p, k) * W(k, e),
  the laid-out column and bias read the row's factor and the column's bias, and so it is the network.
-/
import proofs.«161208_j50792283243092_1_alg».proof.Proof.Gen.ReferenceIdeal.Run
import proofs.«161208_j50792283243092_1_alg».proof.Proof.Net

set_option maxHeartbeats 4000000

noncomputable section

namespace Cert.ReferenceIdeal.RefValue

open Cert.ReferenceIdeal Cert.ReferenceIdeal.Gen Cert.ReferenceIdeal.Value
open Idealize.ShloMosaic Idealize.ShloMosaic.TcCoe Idealize.SL.Sem Cert.GraphNet Cert.ColsMatmul

/-- The dimension records of the reference's program. -/
abbrev rCount := scatter_S100000_S1700000x1_S1700000_n_0_0_1
abbrev rPick := gather_S100000_S1700000x1_S1700000_n_0_n_n_0_1_1
abbrev rRows := gather_S100000x128_S1700000x1_S1700000x128_1_0_n_n_0_1_1128
abbrev rSums := scatter_S100000x128_S1700000x1_S1700000x128_1_0_0_1

variable (m : (ℓ : Loc nD τ sig) → Buf (Elt Ideal) ℓ) (c : Dev nD)

/-- The run's composed term is the host's spelling of the three layers. -/
theorem spelled : res_main_v79 (F := Ideal) m c
    = (hostLayer rCount rPick rRows rSums dot_S100000x128_S128x128_S100000x128_1_0_0_1_n_n (m ((c.tc : Thread nD τ).loc main_arg7)) (m ((c.tc : Thread nD τ).loc main_arg8)) (hostRelu (hostLayer rCount rPick rRows rSums dot_S100000x128_S128x128_S100000x128_1_0_0_1_n_n (m ((c.tc : Thread nD τ).loc main_arg7)) (m ((c.tc : Thread nD τ).loc main_arg8)) (hostRelu (hostLayer rCount rPick rRows rSums dot_S100000x128_S128x128_S100000x128_1_0_0_1_n_n (m ((c.tc : Thread nD τ).loc main_arg7)) (m ((c.tc : Thread nD τ).loc main_arg8)) (m ((c.tc : Thread nD τ).loc main_arg0)) (m ((c.tc : Thread nD τ).loc main_arg1)) (m ((c.tc : Thread nD τ).loc main_arg2)))) (m ((c.tc : Thread nD τ).loc main_arg3)) (m ((c.tc : Thread nD τ).loc main_arg4)))) (m ((c.tc : Thread nD τ).loc main_arg5)) (m ((c.tc : Thread nD τ).loc main_arg6))) := by
  unfold res_main_v79
  rfl

/-- The reference's result is the network of the launch arrays. -/
theorem result : res_main_v79 (F := Ideal) m c
    = net rCount rPick rRows rSums (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (spelled m c).trans (hostNet_eq rCount rPick rRows rSums dot_S100000x128_S128x128_S100000x128_1_0_0_1_n_n rfl _ _ _ _ _ _ _ _ _)

end Cert.ReferenceIdeal.RefValue

end
-- ==== Proof.lean ====
/-
  A three-layer graph convolution (dense product, gather along the edges, scale, scatter-add into the destinations,
  symmetric degree normalisation, bias, rectifier) computed by six kernel regions among host operations, against the
  same network written with plain array operations.

  On the extended reals the two programs compute one function of the launch arrays. The kernel's three product regions
  each leave, block by block, the matrix product of what they find (Product0/2/4: entry (p, e) the sum over k of
  x(p, k) * W(k, e), a change of float format being the identity); its three other regions leave, block by block, each
  row scaled by its node's factor with the bias added, rectified in the first two layers (Combine1/3/5). Between them
  the host's gather, multiply and scatter-add are the very operations the reference applies, applied to equal values,
  and are never opened. The reference's general product is the same sum, and its laid-out factor column and bias read
  the same entries (Net). Walking the kernel's buffer contents from boundary to boundary (Layer1/2/3) gives its result
  as the network of the launch arrays; unfolding the reference's composed term (RefValue) gives the same.
  No law used needs a finite entry: the precondition is not opened. The idealisation rewrote no operation, so the
  preservation claim is trivial; the frames are the generated ones, the reference's being its run with the result
  dropped.
-/
import proofs.«161208_j50792283243092_1_alg».proof.Defs
import proofs.«161208_j50792283243092_1_alg».proof.Proof.Gen.Kernel
import proofs.«161208_j50792283243092_1_alg».proof.Proof.Gen.Kernel.Skeleton
import proofs.«161208_j50792283243092_1_alg».proof.Proof.Gen.Kernel.Launch
import proofs.«161208_j50792283243092_1_alg».proof.Proof.Gen.Kernel.Points
import proofs.«161208_j50792283243092_1_alg».proof.Proof.Gen.Kernel.Frame
import proofs.«161208_j50792283243092_1_alg».proof.Proof.Gen.KernelIdeal
import proofs.«161208_j50792283243092_1_alg».proof.Proof.Gen.KernelIdeal.Skeleton
import proofs.«161208_j50792283243092_1_alg».proof.Proof.Gen.KernelIdeal.Launch
import proofs.«161208_j50792283243092_1_alg».proof.Proof.Gen.KernelIdeal.Points
import proofs.«161208_j50792283243092_1_alg».proof.Proof.Gen.KernelIdeal.Frame
import proofs.«161208_j50792283243092_1_alg».proof.Proof.Gen.ReferenceIdeal
import proofs.«161208_j50792283243092_1_alg».proof.Proof.Gen.ReferenceIdeal.Run
import proofs.«161208_j50792283243092_1_alg».proof.Proof.Gen.Pre_finite_inputs
import proofs.«161208_j50792283243092_1_alg».proof.Proof.ResultRun
import proofs.«161208_j50792283243092_1_alg».proof.Proof.Layer3
import proofs.«161208_j50792283243092_1_alg».proof.Proof.RefValue
import Idealize.ShloMosaic.Adequacy
import Idealize.ShloMosaic.Init

noncomputable section

namespace Cert.Proof

open Idealize.ShloMosaic Idealize.ShloMosaic.TcCoe Idealize.SL.Sem Cert.GraphNet

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The two programs' dimension records hold the same dimension numbers. -/
theorem count_eq : (Cert.ReferenceIdeal.RefValue.rCount : ScatterDims SN SE1 SE) = Cert.KernelIdeal.Stages.kCount := rfl
theorem pick_eq : (Cert.ReferenceIdeal.RefValue.rPick : GatherDims SN SE1 SE) = Cert.KernelIdeal.Stages.kPick := rfl
theorem rows_eq : (Cert.ReferenceIdeal.RefValue.rRows : GatherDims SND SE1 SED) = Cert.KernelIdeal.Stages.kRows := rfl
theorem sums_eq : (Cert.ReferenceIdeal.RefValue.rSums : ScatterDims SND SE1 SED) = Cert.KernelIdeal.Stages.kSums := rfl

/-- From memories agreeing on the arguments both programs end with the network of the launch arrays in their result. -/
theorem algebraic : Cert.algebraic_KernelIdeal_ReferenceIdeal := by
  intro m ρ m' ρ' _ hagree
  refine ⟨fun c => Cert.KernelIdeal.Gen.W14 m ρ c (Proc.devRef .tc Cert.KernelIdeal.main_v66),
    Cert.KernelIdeal.ResultRun.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result m' c).trans (Eq.trans ?_ (Cert.KernelIdeal.Stages.result m ρ c).symm)
  obtain ⟨h0, h1, h2, h3, h4, h5, h6, h7, h8⟩ := hagree c
  rw [h0, h1, h2, h3, h4, h5, h6, h7, h8, count_eq, pick_eq, rows_eq, sums_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
